-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v61)) (v1 : (c : Dev Cert.KernelIdeal.nD) → Buf (Elt Ideal) ((c.tc : Thread Cert.KernelIdeal.nD Cert.KernelIdeal.τ).loc Cert.KernelIdeal.main_v77)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_v77) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v94) = v0 c
          ∧ r.2.mem ((c.tc : Thread Cert.ReferenceIdeal.nD Cert.ReferenceIdeal.τ).loc Cert.ReferenceIdeal.main_v141) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg6 : FVec F S64 .f32) (main_arg7 : FVec F S128x64 .f32) (main_arg8 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S128x64 .f32 := Host.absf main_arg7
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S100000x128 .f32) (main_arg1 : IVec S2x1600000 32) (main_arg2 : IVec S100000 32) (main_arg3 : FVec F S128x128 .f32) (main_arg4 : FVec F S128 .f32) (main_arg5 : FVec F S128x64 .f32) (main_arg6 : FVec F S64 .f32) (main_arg7 : FVec F S128x64 .f32) (main_arg8 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg5
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg6 main_arg7 main_arg8 main_v13 main_v16
-- ==== Kernel.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S2000x128 : Shape := ⟨2, ![2000, 128]⟩
abbrev S1700000x128 : Shape := ⟨2, ![1700000, 128]⟩
abbrev S1x128 : Shape := ⟨2, ![1, 128]⟩
abbrev S100000x64 : Shape := ⟨2, ![100000, 64]⟩
abbrev S2000x64 : Shape := ⟨2, ![2000, 64]⟩
abbrev S1700000x64 : Shape := ⟨2, ![1700000, 64]⟩
abbrev S1x64 : Shape := ⟨2, ![1, 64]⟩

abbrev nBuf : Space → Nat
  | .hbm => 105
  | .vmem => 30
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S100000, .i32⟩
  | .hbm, ⟨3, _⟩ => ⟨S128x128, .f32⟩
  | .hbm, ⟨4, _⟩ => ⟨S128, .f32⟩
  | .hbm, ⟨5, _⟩ => ⟨S128x64, .f32⟩
  | .hbm, ⟨6, _⟩ => ⟨S64, .f32⟩
  | .hbm, ⟨7, _⟩ => ⟨S128x64, .f32⟩
  | .hbm, ⟨8, _⟩ => ⟨S64, .f32⟩
  | .hbm, ⟨9, _⟩ => ⟨S1x1600000, .i32⟩
  | .hbm, ⟨10, _⟩ => ⟨S1600000, .i32⟩
  | .hbm, ⟨11, _⟩ => ⟨S1x1600000, .i32⟩
  | .hbm, ⟨12, _⟩ => ⟨S1600000, .i32⟩
  | .hbm, ⟨13, _⟩ => ⟨S100000, .i32⟩
  | .hbm, ⟨14, _⟩ => ⟨S1700000, .i32⟩
  | .hbm, ⟨15, _⟩ => ⟨S1700000, .i32⟩
  | .hbm, ⟨16, _⟩ => ⟨S_, .f32⟩
  | .hbm, ⟨17, _⟩ => ⟨S1700000, .f32⟩
  | .hbm, ⟨18, _⟩ => ⟨S_, .f32⟩
  | .hbm, ⟨19, _⟩ => ⟨S100000, .f32⟩
  | .hbm, ⟨20, _⟩ => ⟨S1700000x1, .i32⟩
  | .hbm, ⟨21, _⟩ => ⟨S100000, .f32⟩
  | .hbm, ⟨22, _⟩ => ⟨S_, .f32⟩
  | .hbm, ⟨23, _⟩ => ⟨S100000, .f32⟩
  | .hbm, ⟨24, _⟩ => ⟨S100000, .i1⟩
  | .hbm, ⟨25, _⟩ => ⟨S100000, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S1700000, .i32⟩
  | .hbm, ⟨31, _⟩ => ⟨S1700000, .i1⟩
  | .hbm, ⟨32, _⟩ => ⟨S_, .i32⟩
  | .hbm, ⟨33, _⟩ => ⟨S1700000, .i32⟩
  | .hbm, ⟨34, _⟩ => ⟨S1700000, .i32⟩
  | .hbm, ⟨35, _⟩ => ⟨S1700000, .i32⟩
  | .hbm, ⟨36, _⟩ => ⟨S1700000x1, .i32⟩
  | .hbm, ⟨37, _⟩ => ⟨S1700000, .f32⟩
  | .hbm, ⟨38, _⟩ => ⟨S_, .i32⟩
  | .hbm, ⟨39, _⟩ => ⟨S1700000, .i32⟩
  | .hbm, ⟨40, _⟩ => ⟨S1700000, .i1⟩
  | .hbm, ⟨41, _⟩ => ⟨S_, .i32⟩
  | .hbm, ⟨42, _⟩ => ⟨S1700000, .i32⟩
  | .hbm, ⟨43, _⟩ => ⟨S1700000, .i32⟩
  | .hbm, ⟨44, _⟩ => ⟨S1700000, .i32⟩
  | .hbm, ⟨45, _⟩ => ⟨S1700000x1, .i32⟩
  | .hbm, ⟨46, _⟩ => ⟨S1700000, .f32⟩
  | .hbm, ⟨47, _⟩ => ⟨S1700000, .f32⟩
  | .hbm, ⟨48, _⟩ => ⟨S100000x128, .f32⟩
  | .hbm, ⟨49, _⟩ => ⟨S1700000x1, .f32⟩
  | .hbm, ⟨50, _⟩ => ⟨S_, .i32⟩
  | .hbm, ⟨51, _⟩ => ⟨S1700000, .i32⟩
  | .hbm, ⟨52, _⟩ => ⟨S1700000, .i1⟩
  | .hbm, ⟨53, _⟩ => ⟨S_, .i32⟩
  | .hbm, ⟨54, _⟩ => ⟨S1700000, .i32⟩
  | .hbm, ⟨55, _⟩ => ⟨S1700000, .i32⟩
  | .hbm, ⟨56, _⟩ => ⟨S1700000, .i32⟩
  | .hbm, ⟨57, _⟩ => ⟨S1700000x1, .i32⟩
  | .hbm, ⟨58, _⟩ => ⟨S1700000x128, .f32⟩
  | .hbm, ⟨59, _⟩ => ⟨S1700000x128, .f32⟩
  | .hbm, ⟨60, _⟩ => ⟨S1700000x128, .f32⟩
  | .hbm, ⟨61, _⟩ => ⟨S_, .f32⟩
  | .hbm, ⟨62, _⟩ => ⟨S100000x128, .f32⟩
  | .hbm, ⟨63, _⟩ => ⟨S1700000x1, .i32⟩
  | .hbm, ⟨64, _⟩ => ⟨S100000x128, .f32⟩
  | .hbm, ⟨65, _⟩ => ⟨S1x128, .f32⟩
  | .hbm, ⟨66, _⟩ => ⟨S100000x128, .f32⟩
  | .hbm, ⟨67, _⟩ => ⟨S100000x64, .f32⟩
  | .hbm, ⟨68, _⟩ => ⟨S1700000x1, .f32⟩
  | .hbm, ⟨69, _⟩ => ⟨S_, .i32⟩
  | .hbm, ⟨70, _⟩ => ⟨S1700000, .i32⟩
  | .hbm, ⟨71, _⟩ => ⟨S1700000, .i1⟩
  | .hbm, ⟨72, _⟩ => ⟨S_, .i32⟩
  | .hbm, ⟨73, _⟩ => ⟨S1700000, .i32⟩
  | .hbm, ⟨74, _⟩ => ⟨S1700000, .i32⟩
  | .hbm, ⟨75, _⟩ => ⟨S1700000, .i32⟩
  | .hbm, ⟨76, _⟩ => ⟨S1700000x1, .i32⟩
  | .hbm, ⟨77, _⟩ => ⟨S1700000x64, .f32⟩
  | .hbm, ⟨78, _⟩ => ⟨S1700000x64, .f32⟩
  | .hbm, ⟨79, _⟩ => ⟨S1700000x64, .f32⟩
  | .hbm, ⟨80, _⟩ => ⟨S_, .f32⟩
  | .hbm, ⟨81, _⟩ => ⟨S100000x64, .f32⟩
  | .hbm, ⟨82, _⟩ => ⟨S1700000x1, .i32⟩
  | .hbm, ⟨83, _⟩ => ⟨S100000x64, .f32⟩
  | .hbm, ⟨84, _⟩ => ⟨S1x64, .f32⟩
  | .hbm, ⟨85, _⟩ => ⟨S100000x64, .f32⟩
  | .hbm, ⟨86, _⟩ => ⟨S100000x64, .f32⟩
  | .hbm, ⟨87, _⟩ => ⟨S1700000x1, .f32⟩
  | .hbm, ⟨88, _⟩ => ⟨S_, .i32⟩
  | .hbm, ⟨89, _⟩ => ⟨S1700000, .i32⟩
  | .hbm, ⟨90, _⟩ => ⟨S1700000, .i1⟩
  | .hbm, ⟨91, _⟩ => ⟨S_, .i32⟩
  | .hbm, ⟨92, _⟩ => ⟨S1700000, .i32⟩
  | .hbm, ⟨93, _⟩ => ⟨S1700000, .i32⟩
  | .hbm, ⟨94, _⟩ => ⟨S1700000, .i32⟩
  | .hbm, ⟨95, _⟩ => ⟨S1700000x1, .i32⟩
  | .hbm, ⟨96, _⟩ => ⟨S1700000x64, .f32⟩
  | .hbm, ⟨97, _⟩ => ⟨S1700000x64, .f32⟩
  | .hbm, ⟨98, _⟩ => ⟨S1700000x64, .f32⟩
  | .hbm, ⟨99, _⟩ => ⟨S_, .f32⟩
  | .hbm, ⟨100, _⟩ => ⟨S100000x64, .f32⟩
  | .hbm, ⟨101, _⟩ => ⟨S1700000x1, .i32⟩
  | .hbm, ⟨102, _⟩ => ⟨S100000x64, .f32⟩
  | .hbm, ⟨103, _⟩ => ⟨S1x64, .f32⟩
  | .hbm, ⟨104, _⟩ => ⟨S100000x64, .f32⟩
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S1x128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S128x64, .f32⟩
  | .local _ .vmem, ⟨13, _⟩ => ⟨S2000x64, .f32⟩
  | .local _ .vmem, ⟨14, _⟩ => ⟨S2000x64, .f32⟩
  | .local _ .vmem, ⟨15, _⟩ => ⟨S2000x64, .f32⟩
  | .local _ .vmem, ⟨16, _⟩ => ⟨S2000x64, .f32⟩
  | .local _ .vmem, ⟨17, _⟩ => ⟨S1x64, .f32⟩
  | .local _ .vmem, ⟨18, _⟩ => ⟨S2000x64, .f32⟩
  | .local _ .vmem, ⟨19, _⟩ => ⟨S2000x64, .f32⟩
  | .local _ .vmem, ⟨20, _⟩ => ⟨S2000x128, .f32⟩
  | .local _ .vmem, ⟨21, _⟩ => ⟨S2000x128, .f32⟩
  | .local _ .vmem, ⟨22, _⟩ => ⟨S128x64, .f32⟩
  | .local _ .vmem, ⟨23, _⟩ => ⟨S2000x64, .f32⟩
  | .local _ .vmem, ⟨24, _⟩ => ⟨S2000x64, .f32⟩
  | .local _ .vmem, ⟨25, _⟩ => ⟨S2000x64, .f32⟩
  | .local _ .vmem, ⟨26, _⟩ => ⟨S2000x64, .f32⟩
  | .local _ .vmem, ⟨27, _⟩ => ⟨S1x64, .f32⟩
  | .local _ .vmem, ⟨28, _⟩ => ⟨S2000x64, .f32⟩
  | .local _ .vmem, ⟨29, _⟩ => ⟨S2000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_call0_v0 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_c_6 : Ref sig .tc := ⟨.hbm, 50, rfl⟩
abbrev main_v32 : Ref sig .tc := ⟨.hbm, 51, rfl⟩
abbrev main_v33 : Ref sig .tc := ⟨.hbm, 52, rfl⟩
abbrev main_c_7 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_c_9 : Ref sig .tc := ⟨.hbm, 69, rfl⟩
abbrev main_v48 : Ref sig .tc := ⟨.hbm, 70, rfl⟩
abbrev main_v49 : Ref sig .tc := ⟨.hbm, 71, rfl⟩
abbrev main_c_10 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_cst_11 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_c_12 : Ref sig .tc := ⟨.hbm, 88, rfl⟩
abbrev main_v64 : Ref sig .tc := ⟨.hbm, 89, rfl⟩
abbrev main_v65 : Ref sig .tc := ⟨.hbm, 90, rfl⟩
abbrev main_c_13 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_cst_14 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg2_1 : Ref sig .tc := ⟨.vmem, 24, rfl⟩
abbrev cc5_stg0_0 : Ref sig .tc := ⟨.vmem, 25, rfl⟩
abbrev cc5_stg0_1 : Ref sig .tc := ⟨.vmem, 26, rfl⟩
abbrev cc5_stg1_0 : Ref sig .tc := ⟨.vmem, 27, rfl⟩
abbrev cc5_stg2_0 : Ref sig .tc := ⟨.vmem, 28, rfl⟩
abbrev cc5_stg2_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem2_1 : DmaSem sig := 24
abbrev cc5_sem0_0 : DmaSem sig := 25
abbrev cc5_sem0_1 : DmaSem sig := 26
abbrev cc5_sem1_0 : DmaSem sig := 27
abbrev cc5_sem2_0 : DmaSem sig := 28
abbrev cc5_sem2_1 : DmaSem sig := 29

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S2000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![50], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S2000x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![50], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S2000x64 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S128_S1x128 : S128.ShapeCasts S1x128
  shapeCasts_S2000x128_S2000x128 : S2000x128.ShapeCasts S2000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S128x64_S128x64_0_0 : ∀ a, (![0, 0] : Fin 2 → Nat) a + S128x64.size a ≤ S128x64.size a
  h_S128x64 : 0 < S128x64.numel
  inb_S2000x64_S2000x64_0_0 : ∀ a, (![0, 0] : Fin 2 → Nat) a + S2000x64.size a ≤ S2000x64.size a
  h_S2000x64 : 0 < S2000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  shapeCasts_S64_S1x64 : S64.ShapeCasts S1x64
  shapeCasts_S2000x64_S2000x64 : S2000x64.ShapeCasts S2000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S2000x128_S128x128_S2000x128_1_0_0_1_n_n_wf : DotDims.WF S2000x128 S128x128 S2000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S2000x128_S128x64_S2000x64_1_0_0_1_n_n_wf : DotDims.WF S2000x128 S128x64 S2000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S100000x128.size a
  hwx0_2 : ∀ i : grid0.Coords, EltTy.bits .f32 = 32 ∨ (Rect.block (s := S100000x128) S2000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x128.size a ≤ S100000x128.size a
  hwx1_2 : ∀ i : grid1.Coords, EltTy.bits .f32 = 32 ∨ (Rect.block (s := S100000x128) S2000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S100000x128.size a
  hwx2_0 : ∀ i : grid2.Coords, EltTy.bits .f32 = 32 ∨ (Rect.block (s := S100000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x64.size a ≤ S128x64.size a
  hwx2_1 : ∀ i : grid2.Coords, EltTy.bits .f32 = 32 ∨ (Rect.block (s := S128x64) S128x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x64.size a ≤ S100000x64.size a
  hwx2_2 : ∀ i : grid2.Coords, EltTy.bits .f32 = 32 ∨ (Rect.block (s := S100000x64) S2000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x64.size a ≤ S100000x64.size a
  hwx3_0 : ∀ i : grid3.Coords, EltTy.bits .f32 = 32 ∨ (Rect.block (s := S100000x64) S2000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x64.size a ≤ S100000x64.size a
  hwx3_2 : ∀ i : grid3.Coords, EltTy.bits .f32 = 32 ∨ (Rect.block (s := S100000x64) S2000x64.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x128.size a ≤ S100000x128.size a
  hwx4_0 : ∀ i : grid4.Coords, EltTy.bits .f32 = 32 ∨ (Rect.block (s := S100000x128) S2000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x64.size a ≤ S128x64.size a
  hwx4_1 : ∀ i : grid4.Coords, EltTy.bits .f32 = 32 ∨ (Rect.block (s := S128x64) S128x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2000x64.size a ≤ S100000x64.size a
  hwx4_2 : ∀ i : grid4.Coords, EltTy.bits .f32 = 32 ∨ (Rect.block (s := S100000x64) S2000x64.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x64.size a ≤ S100000x64.size a
  hwx5_0 : ∀ i : grid5.Coords, EltTy.bits .f32 = 32 ∨ (Rect.block (s := S100000x64) S2000x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x64.size a ≤ S1x64.size a
  hwx5_1 : ∀ i : grid5.Coords, EltTy.bits .f32 = 32 ∨ (Rect.block (s := S1x64) S1x64.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S2000x64.size a ≤ S100000x64.size a
  hwx5_2 : ∀ i : grid5.Coords, EltTy.bits .f32 = 32 ∨ (Rect.block (s := S100000x64) S2000x64.size (cc5_transform_2 i) (hinb5_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S2000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v45) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S128x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v46) S2000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v59) S2000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v60) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v61) S2000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v45) S2000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg7) S128x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v62) S2000x64.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v75) S2000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v76) S1x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v77) S2000x64.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S100000x64 : Shape := ⟨2, ![100000, 64]⟩
abbrev S1700000x64 : Shape := ⟨2, ![1700000, 64]⟩
abbrev S1x64 : Shape := ⟨2, ![1, 64]⟩

abbrev nBuf : Space → Nat
  | .hbm => 189
  | .vmem => 0
  | .smem => 0
  | _ => 0

abbrev hbmTy0_0 (i : Nat) : BufTy := match i % 128 with
  | 0 => ⟨S100000x128, .f32⟩
  | 1 => ⟨S2x1600000, .i32⟩
  | 2 => ⟨S100000, .i32⟩
  | 3 => ⟨S128x128, .f32⟩
  | 4 => ⟨S128, .f32⟩
  | 5 => ⟨S128x64, .f32⟩
  | 6 => ⟨S64, .f32⟩
  | 7 => ⟨S128x64, .f32⟩
  | 8 => ⟨S64, .f32⟩
  | 9 => ⟨S1x1600000, .i32⟩
  | 10 => ⟨S1600000, .i32⟩
  | 11 => ⟨S1x1600000, .i32⟩
  | 12 => ⟨S1600000, .i32⟩
  | 13 => ⟨S100000, .i32⟩
  | 14 => ⟨S1700000, .i32⟩
  | 15 => ⟨S1700000, .i32⟩
  | 16 => ⟨S100000x128, .f32⟩
  | 17 => ⟨S_, .f32⟩
  | 18 => ⟨S1700000, .f32⟩
  | 19 => ⟨S_, .f32⟩
  | 20 => ⟨S100000, .f32⟩
  | 21 => ⟨S1700000x1, .i32⟩
  | 22 => ⟨S100000, .f32⟩
  | 23 => ⟨S_, .f32⟩
  | 24 => ⟨S100000, .f32⟩
  | 25 => ⟨S100000, .i1⟩
  | 26 => ⟨S100000, .f32⟩
  | 27 => ⟨S_, .f32⟩
  | 28 => ⟨S100000, .f32⟩
  | 29 => ⟨S100000, .f32⟩
  | 30 => ⟨S_, .i32⟩
  | 31 => ⟨S1700000, .i32⟩
  | 32 => ⟨S1700000, .i1⟩
  | 33 => ⟨S_, .i32⟩
  | 34 => ⟨S1700000, .i32⟩
  | 35 => ⟨S1700000, .i32⟩
  | 36 => ⟨S1700000, .i32⟩
  | 37 => ⟨S1700000x1, .i32⟩
  | 38 => ⟨S1700000, .f32⟩
  | 39 => ⟨S_, .i32⟩
  | 40 => ⟨S1700000, .i32⟩
  | 41 => ⟨S1700000, .i1⟩
  | 42 => ⟨S_, .i32⟩
  | 43 => ⟨S1700000, .i32⟩
  | 44 => ⟨S1700000, .i32⟩
  | 45 => ⟨S1700000, .i32⟩
  | 46 => ⟨S1700000x1, .i32⟩
  | 47 => ⟨S1700000, .f32⟩
  | 48 => ⟨S1700000, .f32⟩
  | 49 => ⟨S1700000x1, .f32⟩
  | 50 => ⟨S_, .i32⟩
  | 51 => ⟨S1700000, .i32⟩
  | 52 => ⟨S1700000, .i1⟩
  | 53 => ⟨S_, .i32⟩
  | 54 => ⟨S1700000, .i32⟩
  | 55 => ⟨S1700000, .i32⟩
  | 56 => ⟨S1700000, .i32⟩
  | 57 => ⟨S1700000x1, .i32⟩
  | 58 => ⟨S1700000x128, .f32⟩
  | 59 => ⟨S1700000x128, .f32⟩
  | 60 => ⟨S1700000x128, .f32⟩
  | 61 => ⟨S_, .f32⟩
  | 62 => ⟨S100000x128, .f32⟩
  | 63 => ⟨S1700000x1, .i32⟩
  | 64 => ⟨S100000x128, .f32⟩
  | 65 => ⟨S1x128, .f32⟩
  | 66 => ⟨S100000x128, .f32⟩
  | 67 => ⟨S100000x128, .f32⟩
  | 68 => ⟨S_, .f32⟩
  | 69 => ⟨S100000x128, .f32⟩
  | 70 => ⟨S100000x128, .f32⟩
  | 71 => ⟨S1x1600000, .i32⟩
  | 72 => ⟨S1600000, .i32⟩
  | 73 => ⟨S1x1600000, .i32⟩
  | 74 => ⟨S1600000, .i32⟩
  | 75 => ⟨S100000, .i32⟩
  | 76 => ⟨S1700000, .i32⟩
  | 77 => ⟨S1700000, .i32⟩
  | 78 => ⟨S100000x64, .f32⟩
  | 79 => ⟨S_, .f32⟩
  | 80 => ⟨S1700000, .f32⟩
  | 81 => ⟨S_, .f32⟩
  | 82 => ⟨S100000, .f32⟩
  | 83 => ⟨S1700000x1, .i32⟩
  | 84 => ⟨S100000, .f32⟩
  | 85 => ⟨S_, .f32⟩
  | 86 => ⟨S100000, .f32⟩
  | 87 => ⟨S100000, .i1⟩
  | 88 => ⟨S100000, .f32⟩
  | 89 => ⟨S_, .f32⟩
  | 90 => ⟨S100000, .f32⟩
  | 91 => ⟨S100000, .f32⟩
  | 92 => ⟨S_, .i32⟩
  | 93 => ⟨S1700000, .i32⟩
  | 94 => ⟨S1700000, .i1⟩
  | 95 => ⟨S_, .i32⟩
  | 96 => ⟨S1700000, .i32⟩
  | 97 => ⟨S1700000, .i32⟩
  | 98 => ⟨S1700000, .i32⟩
  | 99 => ⟨S1700000x1, .i32⟩
  | 100 => ⟨S1700000, .f32⟩
  | 101 => ⟨S_, .i32⟩
  | 102 => ⟨S1700000, .i32⟩
  | 103 => ⟨S1700000, .i1⟩
  | 104 => ⟨S_, .i32⟩
  | 105 => ⟨S1700000, .i32⟩
  | 106 => ⟨S1700000, .i32⟩
  | 107 => ⟨S1700000, .i32⟩
  | 108 => ⟨S1700000x1, .i32⟩
  | 109 => ⟨S1700000, .f32⟩
  | 110 => ⟨S1700000, .f32⟩
  | 111 => ⟨S1700000x1, .f32⟩
  | 112 => ⟨S_, .i32⟩
  | 113 => ⟨S1700000, .i32⟩
  | 114 => ⟨S1700000, .i1⟩
  | 115 => ⟨S_, .i32⟩
  | 116 => ⟨S1700000, .i32⟩
  | 117 => ⟨S1700000, .i32⟩
  | 118 => ⟨S1700000, .i32⟩
  | 119 => ⟨S1700000x1, .i32⟩
  | 120 => ⟨S1700000x64, .f32⟩
  | 121 => ⟨S1700000x64, .f32⟩
  | 122 => ⟨S1700000x64, .f32⟩
  | 123 => ⟨S_, .f32⟩
  | 124 => ⟨S100000x64, .f32⟩
  | 125 => ⟨S1700000x1, .i32⟩
  | 126 => ⟨S100000x64, .f32⟩
  | 127 => ⟨S1x64, .f32⟩
  | _ => ⟨S100000x128, .f32⟩

abbrev hbmTy0_1 (i : Nat) : BufTy := match i % 128 with
  | 0 => ⟨S100000x64, .f32⟩
  | 1 => ⟨S100000x64, .f32⟩
  | 2 => ⟨S1x1600000, .i32⟩
  | 3 => ⟨S1600000, .i32⟩
  | 4 => ⟨S1x1600000, .i32⟩
  | 5 => ⟨S1600000, .i32⟩
  | 6 => ⟨S100000, .i32⟩
  | 7 => ⟨S1700000, .i32⟩
  | 8 => ⟨S1700000, .i32⟩
  | 9 => ⟨S100000x64, .f32⟩
  | 10 => ⟨S_, .f32⟩
  | 11 => ⟨S1700000, .f32⟩
  | 12 => ⟨S_, .f32⟩
  | 13 => ⟨S100000, .f32⟩
  | 14 => ⟨S1700000x1, .i32⟩
  | 15 => ⟨S100000, .f32⟩
  | 16 => ⟨S_, .f32⟩
  | 17 => ⟨S100000, .f32⟩
  | 18 => ⟨S100000, .i1⟩
  | 19 => ⟨S100000, .f32⟩
  | 20 => ⟨S_, .f32⟩
  | 21 => ⟨S100000, .f32⟩
  | 22 => ⟨S100000, .f32⟩
  | 23 => ⟨S_, .i32⟩
  | 24 => ⟨S1700000, .i32⟩
  | 25 => ⟨S1700000, .i1⟩
  | 26 => ⟨S_, .i32⟩
  | 27 => ⟨S1700000, .i32⟩
  | 28 => ⟨S1700000, .i32⟩
  | 29 => ⟨S1700000, .i32⟩
  | 30 => ⟨S1700000x1, .i32⟩
  | 31 => ⟨S1700000, .f32⟩
  | 32 => ⟨S_, .i32⟩
  | 33 => ⟨S1700000, .i32⟩
  | 34 => ⟨S1700000, .i1⟩
  | 35 => ⟨S_, .i32⟩
  | 36 => ⟨S1700000, .i32⟩
  | 37 => ⟨S1700000, .i32⟩
  | 38 => ⟨S1700000, .i32⟩
  | 39 => ⟨S1700000x1, .i32⟩
  | 40 => ⟨S1700000, .f32⟩
  | 41 => ⟨S1700000, .f32⟩
  | 42 => ⟨S1700000x1, .f32⟩
  | 43 => ⟨S_, .i32⟩
  | 44 => ⟨S1700000, .i32⟩
  | 45 => ⟨S1700000, .i1⟩
  | 46 => ⟨S_, .i32⟩
  | 47 => ⟨S1700000, .i32⟩
  | 48 => ⟨S1700000, .i32⟩
  | 49 => ⟨S1700000, .i32⟩
  | 50 => ⟨S1700000x1, .i32⟩
  | 51 => ⟨S1700000x64, .f32⟩
  | 52 => ⟨S1700000x64, .f32⟩
  | 53 => ⟨S1700000x64, .f32⟩
  | 54 => ⟨S_, .f32⟩
  | 55 => ⟨S100000x64, .f32⟩
  | 56 => ⟨S1700000x1, .i32⟩
  | 57 => ⟨S100000x64, .f32⟩
  | 58 => ⟨S1x64, .f32⟩
  | 59 => ⟨S100000x64, .f32⟩
  | 60 => ⟨S100000x64, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_call0_v0 : Ref sig .tc := ⟨.hbm, 28, rfl⟩
abbrev main_v15 : Ref sig .tc := ⟨.hbm, 29, rfl⟩
abbrev main_c : Ref sig .tc := ⟨.hbm, 30, rfl⟩
abbrev main_v16 : Ref sig .tc := ⟨.hbm, 31, rfl⟩
abbrev main_v17 : Ref sig .tc := ⟨.hbm, 32, rfl⟩
abbrev main_c_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_c_4 : Ref sig .tc := ⟨.hbm, 39, rfl⟩
abbrev main_v23 : Ref sig .tc := ⟨.hbm, 40, rfl⟩
abbrev main_v24 : Ref sig .tc := ⟨.hbm, 41, rfl⟩
abbrev main_c_5 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_c_6 : Ref sig .tc := ⟨.hbm, 50, rfl⟩
abbrev main_v32 : Ref sig .tc := ⟨.hbm, 51, rfl⟩
abbrev main_v33 : Ref sig .tc := ⟨.hbm, 52, rfl⟩
abbrev main_c_7 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_call1_cst : Ref sig .tc := ⟨.hbm, 68, rfl⟩
abbrev main_call1_v0 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_9 : Ref sig .tc := ⟨.hbm, 79, rfl⟩
abbrev main_v56 : Ref sig .tc := ⟨.hbm, 80, rfl⟩
abbrev main_cst_10 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_cst_11 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_cst_12 : Ref sig .tc := ⟨.hbm, 89, rfl⟩
abbrev main_call2_v0 : Ref sig .tc := ⟨.hbm, 90, rfl⟩
abbrev main_v63 : Ref sig .tc := ⟨.hbm, 91, rfl⟩
abbrev main_c_13 : Ref sig .tc := ⟨.hbm, 92, rfl⟩
abbrev main_v64 : Ref sig .tc := ⟨.hbm, 93, rfl⟩
abbrev main_v65 : Ref sig .tc := ⟨.hbm, 94, rfl⟩
abbrev main_c_14 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_c_15 : Ref sig .tc := ⟨.hbm, 101, rfl⟩
abbrev main_v71 : Ref sig .tc := ⟨.hbm, 102, rfl⟩
abbrev main_v72 : Ref sig .tc := ⟨.hbm, 103, rfl⟩
abbrev main_c_16 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_c_17 : Ref sig .tc := ⟨.hbm, 112, rfl⟩
abbrev main_v80 : Ref sig .tc := ⟨.hbm, 113, rfl⟩
abbrev main_v81 : Ref sig .tc := ⟨.hbm, 114, rfl⟩
abbrev main_c_18 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_cst_19 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_cst_20 : Ref sig .tc := ⟨.hbm, 138, rfl⟩
abbrev main_v103 : Ref sig .tc := ⟨.hbm, 139, rfl⟩
abbrev main_cst_21 : Ref sig .tc := ⟨.hbm, 140, rfl⟩
abbrev main_v104 : Ref sig .tc := ⟨.hbm, 141, rfl⟩
abbrev main_v105 : Ref sig .tc := ⟨.hbm, 142, rfl⟩
abbrev main_v106 : Ref sig .tc := ⟨.hbm, 143, rfl⟩
abbrev main_cst_22 : Ref sig .tc := ⟨.hbm, 144, rfl⟩
abbrev main_v107 : Ref sig .tc := ⟨.hbm, 145, rfl⟩
abbrev main_v108 : Ref sig .tc := ⟨.hbm, 146, rfl⟩
abbrev main_v109 : Ref sig .tc := ⟨.hbm, 147, rfl⟩
abbrev main_cst_23 : Ref sig .tc := ⟨.hbm, 148, rfl⟩
abbrev main_call3_v0 : Ref sig .tc := ⟨.hbm, 149, rfl⟩
abbrev main_v110 : Ref sig .tc := ⟨.hbm, 150, rfl⟩
abbrev main_c_24 : Ref sig .tc := ⟨.hbm, 151, rfl⟩
abbrev main_v111 : Ref sig .tc := ⟨.hbm, 152, rfl⟩
abbrev main_v112 : Ref sig .tc := ⟨.hbm, 153, rfl⟩
abbrev main_c_25 : Ref sig .tc := ⟨.hbm, 154, rfl⟩
abbrev main_v113 : Ref sig .tc := ⟨.hbm, 155, rfl⟩
abbrev main_v114 : Ref sig .tc := ⟨.hbm, 156, rfl⟩
abbrev main_v115 : Ref sig .tc := ⟨.hbm, 157, rfl⟩
abbrev main_v116 : Ref sig .tc := ⟨.hbm, 158, rfl⟩
abbrev main_v117 : Ref sig .tc := ⟨.hbm, 159, rfl⟩
abbrev main_c_26 : Ref sig .tc := ⟨.hbm, 160, rfl⟩
abbrev main_v118 : Ref sig .tc := ⟨.hbm, 161, rfl⟩
abbrev main_v119 : Ref sig .tc := ⟨.hbm, 162, rfl⟩
abbrev main_c_27 : Ref sig .tc := ⟨.hbm, 163, rfl⟩
abbrev main_v120 : Ref sig .tc := ⟨.hbm, 164, rfl⟩
abbrev main_v121 : Ref sig .tc := ⟨.hbm, 165, rfl⟩
abbrev main_v122 : Ref sig .tc := ⟨.hbm, 166, rfl⟩
abbrev main_v123 : Ref sig .tc := ⟨.hbm, 167, rfl⟩
abbrev main_v124 : Ref sig .tc := ⟨.hbm, 168, rfl⟩
abbrev main_v125 : Ref sig .tc := ⟨.hbm, 169, rfl⟩
abbrev main_v126 : Ref sig .tc := ⟨.hbm, 170, rfl⟩
abbrev main_c_28 : Ref sig .tc := ⟨.hbm, 171, rfl⟩
abbrev main_v127 : Ref sig .tc := ⟨.hbm, 172, rfl⟩
abbrev main_v128 : Ref sig .tc := ⟨.hbm, 173, rfl⟩
abbrev main_c_29 : Ref sig .tc := ⟨.hbm, 174, rfl⟩
abbrev main_v129 : Ref sig .tc := ⟨.hbm, 175, rfl⟩
abbrev main_v130 : Ref sig .tc := ⟨.hbm, 176, rfl⟩
abbrev main_v131 : Ref sig .tc := ⟨.hbm, 177, rfl⟩
abbrev main_v132 : Ref sig .tc := ⟨.hbm, 178, rfl⟩
abbrev main_v133 : Ref sig .tc := ⟨.hbm, 179, rfl⟩
abbrev main_v134 : Ref sig .tc := ⟨.hbm, 180, rfl⟩
abbrev main_v135 : Ref sig .tc := ⟨.hbm, 181, rfl⟩
abbrev main_cst_30 : Ref sig .tc := ⟨.hbm, 182, rfl⟩
abbrev main_v136 : Ref sig .tc := ⟨.hbm, 183, rfl⟩
abbrev main_v137 : Ref sig .tc := ⟨.hbm, 184, rfl⟩
abbrev main_v138 : Ref sig .tc := ⟨.hbm, 185, rfl⟩
abbrev main_v139 : Ref sig .tc := ⟨.hbm, 186, rfl⟩
abbrev main_v140 : Ref sig .tc := ⟨.hbm, 187, rfl⟩
abbrev main_v141 : Ref sig .tc := ⟨.hbm, 188, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  dot_S100000x128_S128x128_S100000x128_1_0_0_1_n_n_wf : DotDims.WF S100000x128 S128x128 S100000x128 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x64_S100000x64_1_0_0_1_n_n_wf : DotDims.WF S100000x128 S128x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

class Facts : Prop extends Facts₀ where

variable [Facts]
-- ==== Proof.KernelRun.lean ====
/-
  The idealized kernel's run with BOTH results named. @main is six pallas_calls among stretches of host
  operations; the buffer contents at each boundary are a fold from the launch memory (host stretch: the operations'
  results; pallas_call: its arrays at what the write-backs leave, every other buffer as it was). Every weakly fair
  execution terminates with every unscoped buffer at the last boundary's contents; read at the two result buffers
  and at the nine argument buffers this is the statement below.
-/
import proofs.«146065_j47545287966961_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the two results at the last boundary's
    contents and the arguments as launched. -/
theorem run_results : θ_run defs (onTc (τ := τ) (main (F := F))) ⟨m, fun _ => 0, ρ⟩ (fun r => ∀ c : Dev nD,
      r.2.mem ((c.tc : Thread nD τ).loc main_v61) = W12 m ρ c (Proc.devRef .tc main_v61)
      ∧ r.2.mem ((c.tc : Thread nD τ).loc main_v77) = W12 m ρ c (Proc.devRef .tc main_v77)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v61 (by decide)),
       h c _ (mem_uc main_v77 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c),
       (h c _ (mem_uc main_arg8 (by decide))).trans (W12_main_arg8 m ρ c)⟩)

end Cert.KernelIdeal.RunValue

end
-- ==== Proof.Payload.lean ====
/-
  The six kernel bodies' stored values read at an index of the output block.
  The three matmul bodies (operands narrowed to bf16, a change of format and so the identity on the extended reals;
  accumulated into a zero splat): entry (p, q) of the stored block is the sum over k of x0[p, k] · x1[k, q].
  The three bias bodies: entry (p, q) is x0[p, q] + x1[0, q], the first of them then clamped below by 0.
-/
import proofs.«146065_j47545287966961_1_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.Payload

open Cert.KernelIdeal Cert.KernelIdeal.Gen Idealize.ShloMosaic Idealize.ShloMosaic.TcCoe Idealize.SL.Sem

/-- Row p of the left block at contraction coordinate k: (p, k). -/
abbrev lrow128 (j : S2000x128.Idx) (k : Fin 128) : S2000x128.Idx := fun a => match a with
  | ⟨0, _⟩ => ⟨(j 0).val, (j 0).isLt⟩
  | ⟨1, _⟩ => ⟨k.val, k.isLt⟩
/-- Column q of the 128-wide weight at contraction coordinate k: (k, q). -/
abbrev rcol128 (j : S2000x128.Idx) (k : Fin 128) : S128x128.Idx := fun a => match a with
  | ⟨0, _⟩ => ⟨k.val, k.isLt⟩
  | ⟨1, _⟩ => ⟨(j 1).val, (j 1).isLt⟩
/-- Row p of the left block at contraction coordinate k, for a 64-wide output: (p, k). -/
abbrev lrow64 (j : S2000x64.Idx) (k : Fin 128) : S2000x128.Idx := fun a => match a with
  | ⟨0, _⟩ => ⟨(j 0).val, (j 0).isLt⟩
  | ⟨1, _⟩ => ⟨k.val, k.isLt⟩
/-- Column q of the 64-wide weight at contraction coordinate k: (k, q). -/
abbrev rcol64 (j : S2000x64.Idx) (k : Fin 128) : S128x64.Idx := fun a => match a with
  | ⟨0, _⟩ => ⟨k.val, k.isLt⟩
  | ⟨1, _⟩ => ⟨(j 1).val, (j 1).isLt⟩
/-- The bias row's entry under column q: (0, q). -/
abbrev brow128 (j : S2000x128.Idx) : S1x128.Idx := fun a => match a with
  | ⟨0, _⟩ => ⟨0, Nat.one_pos⟩
  | ⟨1, _⟩ => ⟨(j 1).val, (j 1).isLt⟩
abbrev brow64 (j : S2000x64.Idx) : S1x64.Idx := fun a => match a with
  | ⟨0, _⟩ => ⟨0, Nat.one_pos⟩
  | ⟨1, _⟩ => ⟨(j 1).val, (j 1).isLt⟩

/-! ## The matmul bodies -/

theorem k0_pay1_apply (x0 : Vec Ideal S2000x128 .f32) (x1 : Vec Ideal S128x128 .f32) (j : S2000x128.Idx) :
    k0_pay1 (F := Ideal) x0 x1 j = ∑ k : Fin 128, x0 (lrow128 j k) * x1 (rcol128 j k) := by
  unfold k0_pay1
  show FloatOps.matmul (F := Ideal) dot_S2000x128_S128x128_S2000x128_1_0_0_1_n_n none (truncf (F := Ideal) .bf16 x0 bitsLt_bf16_f32) (truncf (F := Ideal) .bf16 x1 bitsLt_bf16_f32) (constant (F := Ideal) S2000x128 .f32 0x00000000#32) j = _
  rw [Ideal.matmul_constant_zero_apply, ← Equiv.sum_comp (ValueIdx.contrEquiv1 dot_S2000x128_S128x128_S2000x128_1_0_0_1_n_n 128 rfl rfl).symm]
  refine Finset.sum_congr rfl fun k _ => ?_
  have hk := ValueIdx.contrEquiv1_symm_val dot_S2000x128_S128x128_S2000x128_1_0_0_1_n_n 128 rfl rfl k
  have el : dot_S2000x128_S128x128_S2000x128_1_0_0_1_n_n.lhsIdx j ((ValueIdx.contrEquiv1 dot_S2000x128_S128x128_S2000x128_1_0_0_1_n_n 128 rfl rfl).symm k) = lrow128 j k := funext fun a => Fin.ext (by
    match a with
    | ⟨0, _⟩ =>
      show (dot_S2000x128_S128x128_S2000x128_1_0_0_1_n_n.lhsIdx j _ 0).val = (j 0).val
      unfold DotDims.lhsIdx
      rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
      rfl
    | ⟨1, _⟩ => exact (dot_S2000x128_S128x128_S2000x128_1_0_0_1_n_n.lhsIdx_val_of_single rfl j _).trans hk)
  have er : dot_S2000x128_S128x128_S2000x128_1_0_0_1_n_n.rhsIdx j ((ValueIdx.contrEquiv1 dot_S2000x128_S128x128_S2000x128_1_0_0_1_n_n 128 rfl rfl).symm k) = rcol128 j k := funext fun a => Fin.ext (by
    match a with
    | ⟨0, _⟩ => exact (dot_S2000x128_S128x128_S2000x128_1_0_0_1_n_n.rhsIdx_val_of_single rfl j _).trans hk
    | ⟨1, _⟩ =>
      show (dot_S2000x128_S128x128_S2000x128_1_0_0_1_n_n.rhsIdx j _ 1).val = (j 1).val
      unfold DotDims.rhsIdx
      rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
      rfl)
  rw [ValueIdx.truncf_apply, ValueIdx.truncf_apply, el, er]

theorem k2_pay1_apply (x0 : Vec Ideal S2000x128 .f32) (x1 : Vec Ideal S128x64 .f32) (j : S2000x64.Idx) :
    k2_pay1 (F := Ideal) x0 x1 j = ∑ k : Fin 128, x0 (lrow64 j k) * x1 (rcol64 j k) := by
  unfold k2_pay1
  rw [shapeCast_self x0 shapeCasts_S2000x128_S2000x128]
  show FloatOps.matmul (F := Ideal) dot_S2000x128_S128x64_S2000x64_1_0_0_1_n_n none (truncf (F := Ideal) .bf16 x0 bitsLt_bf16_f32) (truncf (F := Ideal) .bf16 x1 bitsLt_bf16_f32) (constant (F := Ideal) S2000x64 .f32 0x00000000#32) j = _
  rw [Ideal.matmul_constant_zero_apply, ← Equiv.sum_comp (ValueIdx.contrEquiv1 dot_S2000x128_S128x64_S2000x64_1_0_0_1_n_n 128 rfl rfl).symm]
  refine Finset.sum_congr rfl fun k _ => ?_
  have hk := ValueIdx.contrEquiv1_symm_val dot_S2000x128_S128x64_S2000x64_1_0_0_1_n_n 128 rfl rfl k
  have el : dot_S2000x128_S128x64_S2000x64_1_0_0_1_n_n.lhsIdx j ((ValueIdx.contrEquiv1 dot_S2000x128_S128x64_S2000x64_1_0_0_1_n_n 128 rfl rfl).symm k) = lrow64 j k := funext fun a => Fin.ext (by
    match a with
    | ⟨0, _⟩ =>
      show (dot_S2000x128_S128x64_S2000x64_1_0_0_1_n_n.lhsIdx j _ 0).val = (j 0).val
      unfold DotDims.lhsIdx
      rw [dif_neg (show ¬(0 : Fin S2000x128.rank) ∈ dot_S2000x128_S128x64_S2000x64_1_0_0_1_n_n.lhsBatch by decide), dif_pos (show (0 : Fin S2000x128.rank) ∈ dot_S2000x128_S128x64_S2000x64_1_0_0_1_n_n.lhsNonContracting by decide)]
      rfl
    | ⟨1, _⟩ => exact (dot_S2000x128_S128x64_S2000x64_1_0_0_1_n_n.lhsIdx_val_of_single rfl j _).trans hk)
  have er : dot_S2000x128_S128x64_S2000x64_1_0_0_1_n_n.rhsIdx j ((ValueIdx.contrEquiv1 dot_S2000x128_S128x64_S2000x64_1_0_0_1_n_n 128 rfl rfl).symm k) = rcol64 j k := funext fun a => Fin.ext (by
    match a with
    | ⟨0, _⟩ => exact (dot_S2000x128_S128x64_S2000x64_1_0_0_1_n_n.rhsIdx_val_of_single rfl j _).trans hk
    | ⟨1, _⟩ =>
      show (dot_S2000x128_S128x64_S2000x64_1_0_0_1_n_n.rhsIdx j _ 1).val = (j 1).val
      unfold DotDims.rhsIdx
      rw [dif_neg (show ¬(1 : Fin S128x64.rank) ∈ dot_S2000x128_S128x64_S2000x64_1_0_0_1_n_n.rhsBatch by decide), dif_pos (show (1 : Fin S128x64.rank) ∈ dot_S2000x128_S128x64_S2000x64_1_0_0_1_n_n.rhsNonContracting by decide)]
      rfl)
  rw [ValueIdx.truncf_apply, ValueIdx.truncf_apply, el, er]

theorem k4_pay1_apply (x0 : Vec Ideal S2000x128 .f32) (x1 : Vec Ideal S128x64 .f32) (j : S2000x64.Idx) :
    k4_pay1 (F := Ideal) x0 x1 j = ∑ k : Fin 128, x0 (lrow64 j k) * x1 (rcol64 j k) := by
  unfold k4_pay1
  rw [shapeCast_self x0 shapeCasts_S2000x128_S2000x128]
  show FloatOps.matmul (F := Ideal) dot_S2000x128_S128x64_S2000x64_1_0_0_1_n_n none (truncf (F := Ideal) .bf16 x0 bitsLt_bf16_f32) (truncf (F := Ideal) .bf16 x1 bitsLt_bf16_f32) (constant (F := Ideal) S2000x64 .f32 0x00000000#32) j = _
  rw [Ideal.matmul_constant_zero_apply, ← Equiv.sum_comp (ValueIdx.contrEquiv1 dot_S2000x128_S128x64_S2000x64_1_0_0_1_n_n 128 rfl rfl).symm]
  refine Finset.sum_congr rfl fun k _ => ?_
  have hk := ValueIdx.contrEquiv1_symm_val dot_S2000x128_S128x64_S2000x64_1_0_0_1_n_n 128 rfl rfl k
  have el : dot_S2000x128_S128x64_S2000x64_1_0_0_1_n_n.lhsIdx j ((ValueIdx.contrEquiv1 dot_S2000x128_S128x64_S2000x64_1_0_0_1_n_n 128 rfl rfl).symm k) = lrow64 j k := funext fun a => Fin.ext (by
    match a with
    | ⟨0, _⟩ =>
      show (dot_S2000x128_S128x64_S2000x64_1_0_0_1_n_n.lhsIdx j _ 0).val = (j 0).val
      unfold DotDims.lhsIdx
      rw [dif_neg (show ¬(0 : Fin S2000x128.rank) ∈ dot_S2000x128_S128x64_S2000x64_1_0_0_1_n_n.lhsBatch by decide), dif_pos (show (0 : Fin S2000x128.rank) ∈ dot_S2000x128_S128x64_S2000x64_1_0_0_1_n_n.lhsNonContracting by decide)]
      rfl
    | ⟨1, _⟩ => exact (dot_S2000x128_S128x64_S2000x64_1_0_0_1_n_n.lhsIdx_val_of_single rfl j _).trans hk)
  have er : dot_S2000x128_S128x64_S2000x64_1_0_0_1_n_n.rhsIdx j ((ValueIdx.contrEquiv1 dot_S2000x128_S128x64_S2000x64_1_0_0_1_n_n 128 rfl rfl).symm k) = rcol64 j k := funext fun a => Fin.ext (by
    match a with
    | ⟨0, _⟩ => exact (dot_S2000x128_S128x64_S2000x64_1_0_0_1_n_n.rhsIdx_val_of_single rfl j _).trans hk
    | ⟨1, _⟩ =>
      show (dot_S2000x128_S128x64_S2000x64_1_0_0_1_n_n.rhsIdx j _ 1).val = (j 1).val
      unfold DotDims.rhsIdx
      rw [dif_neg (show ¬(1 : Fin S128x64.rank) ∈ dot_S2000x128_S128x64_S2000x64_1_0_0_1_n_n.rhsBatch by decide), dif_pos (show (1 : Fin S128x64.rank) ∈ dot_S2000x128_S128x64_S2000x64_1_0_0_1_n_n.rhsNonContracting by decide)]
      rfl)
  rw [ValueIdx.truncf_apply, ValueIdx.truncf_apply, el, er]

/-! ## The bias bodies -/

variable {F : FTy → Type} [FloatOps F]

theorem k1_pay1_apply (x0 : Vec F S2000x128 .f32) (x1 : Vec F S1x128 .f32) (j : S2000x128.Idx) :
    k1_pay1 (F := F) x0 x1 j = FloatOps.maximumf (FloatOps.addf (x0 j) (x1 (brow128 j))) (FloatOps.ofBits .f32 0x00000000#32) := by
  unfold k1_pay1
  show FloatOps.maximumf (FloatOps.addf (shapeCast S2000x128 x0 shapeCasts_S2000x128_S2000x128 j) (broadcastTo S2000x128 (shapeCast S1x128 x1 shapeCasts_S1x128_S1x128) broadcasts_S1x128_S2000x128 j)) _ = _
  rw [shapeCast_self, shapeCast_self, broadcastTo_apply x1 broadcasts_S1x128_S2000x128 j (brow128 j) (fun a => by
    match a with
    | ⟨0, _⟩ => show 0 = if (1 : Nat) = 1 then 0 else _; rw [if_pos rfl]
    | ⟨1, _⟩ => show (j 1).val = if (128 : Nat) = 1 then 0 else (j 1).val; rw [if_neg (by decide)])]
  rfl

theorem k3_pay1_apply (x0 : Vec F S2000x64 .f32) (x1 : Vec F S1x64 .f32) (j : S2000x64.Idx) :
    k3_pay1 (F := F) x0 x1 j = FloatOps.addf (x0 j) (x1 (brow64 j)) := by
  unfold k3_pay1
  show FloatOps.addf (shapeCast S2000x64 x0 shapeCasts_S2000x64_S2000x64 j) (broadcastTo S2000x64 (shapeCast S1x64 x1 shapeCasts_S1x64_S1x64) broadcasts_S1x64_S2000x64 j) = _
  rw [shapeCast_self, shapeCast_self, broadcastTo_apply x1 broadcasts_S1x64_S2000x64 j (brow64 j) (fun a => by
    match a with
    | ⟨0, _⟩ => show 0 = if (1 : Nat) = 1 then 0 else _; rw [if_pos rfl]
    | ⟨1, _⟩ => show (j 1).val = if (64 : Nat) = 1 then 0 else (j 1).val; rw [if_neg (by decide)])]

theorem k5_pay1_apply (x0 : Vec F S2000x64 .f32) (x1 : Vec F S1x64 .f32) (j : S2000x64.Idx) :
    k5_pay1 (F := F) x0 x1 j = FloatOps.addf (x0 j) (x1 (brow64 j)) := by
  unfold k5_pay1
  show FloatOps.addf (shapeCast S2000x64 x0 shapeCasts_S2000x64_S2000x64 j) (broadcastTo S2000x64 (shapeCast S1x64 x1 shapeCasts_S1x64_S1x64) broadcasts_S1x64_S2000x64 j) = _
  rw [shapeCast_self, shapeCast_self, broadcastTo_apply x1 broadcasts_S1x64_S2000x64 j (brow64 j) (fun a => by
    match a with
    | ⟨0, _⟩ => show 0 = if (1 : Nat) = 1 then 0 else _; rw [if_pos rfl]
    | ⟨1, _⟩ => show (j 1).val = if (64 : Nat) = 1 then 0 else (j 1).val; rw [if_neg (by decide)])]

end Cert.KernelIdeal.Payload

end
-- ==== Proof.Region0.lean ====
/-
  Pallas call 0 (a row-tiled matrix product): its output array after the call, as ONE function of the two input
  arrays as the call finds them. Grid point t multiplies rows 2000·t … 2000·t + 1999 of the left array by the whole
  right array and writes rows 2000·t … 2000·t + 1999 of the output; the fifty blocks tile the output, so entry (r, q)
  of the output is the sum over k of left[r, k] · right[k, q].
-/
import proofs.«146065_j47545287966961_1_alg».proof.Proof.Gen.KernelIdeal.Frame
import proofs.«146065_j47545287966961_1_alg».proof.Proof.Payload
import proofs.«146065_j47545287966961_1_alg».proof.Proof.ReferenceReadP

set_option maxRecDepth 16384

noncomputable section

namespace Cert.KernelIdeal.Region0

open Cert.KernelIdeal Cert.KernelIdeal.Gen
open Idealize.ShloMosaic Idealize.ShloMosaic.TcCoe Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The product of a left array and a right array, entry by entry: (r, q) ↦ ∑ k, left[r, k] · right[k, q]. -/
abbrev prod (a0 : S100000x128.Idx → EReal) (a1 : S128x128.Idx → EReal) : S100000x128.Idx → EReal :=
  fun i => ∑ k : Fin 128, a0 (Cert.ReferenceIdeal.ReadP.lidx_main_v7 i k) * a1 (Cert.ReferenceIdeal.ReadP.ridx_main_v7 i k)

/-- The two input arrays as the call finds them, as functions from indices to extended reals. -/
abbrev leftArr (c : Dev nD) : S100000x128.Idx → EReal := V c main_arg0
abbrev rightArr (c : Dev nD) : S128x128.Idx → EReal := V c main_arg3

/-- The printed index maps over the grid: the left window and the output window move together down the rows, on
    block column 0; the right window stays on block (0, 0). -/
theorem idx_facts : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0 :=
  (by decide +kernel : ∀ t : Fin grid0.N, _)

/-- Every block row of the output is some point's. -/
theorem idx_onto : ∀ q0 : Fin 50, ∃ t : Fin cfg0.N, win0_2.index t = ![q0.val, 0] :=
  (by decide +kernel : ∀ q0 : Fin 50, ∃ t : Fin grid0.N, win0_2.index t = ![q0.val, 0])

set_option backward.isDefEq.respectTransparency.types false in
/-- What point t writes back is block t of the product of the two input arrays. -/
theorem flushed_eq (c : Dev nD) (t : Fin cfg0.N) :
    (dat0 V c).flushed 2 t = ((cfg0.win 2).blk t).view.read (Elt Ideal) (prod (V c main_arg0) (V c main_arg3)) := by
  show (cfg0.win 2).cut (grid0.coords t) ((dat0 V c).after 2 t) = _
  rw [after0_2]
  unfold out0_2
  rw [View.canon_unit_zero hz]
  simp only [View.ld_unit_zero (S := S2000x128) hz, View.ld_unit_zero (S := S128x128) hz]
  obtain ⟨e0, e1, e2, e3, e4⟩ := idx_facts t
  funext j
  refine (Payload.k0_pay1_apply (iblk0 V c 0 t) (iblk0 V c 1 t) j).trans ?_
  show (∑ k : Fin 128, leftArr V c (((cfg0.win 0).blk t).view.emb (Payload.lrow128 j k)) * rightArr V c (((cfg0.win 1).blk t).view.emb (Payload.rcol128 j k)))
    = ∑ k : Fin 128, leftArr V c (Cert.ReferenceIdeal.ReadP.lidx_main_v7 (((cfg0.win 2).blk t).view.emb j) k) * rightArr V c (Cert.ReferenceIdeal.ReadP.ridx_main_v7 (((cfg0.win 2).blk t).view.emb j) k)
  refine Finset.sum_congr rfl fun k _ => ?_
  have h0 : ((cfg0.win 0).blk t).view.emb (Payload.lrow128 j k) = Cert.ReferenceIdeal.ReadP.lidx_main_v7 (((cfg0.win 2).blk t).view.emb j) k := by
    funext a; apply Fin.ext
    match a with
    | ⟨0, _⟩ => show win0_0.index t (0 : Fin 2) * 2000 + 1 * (j 0).val = win0_2.index t (0 : Fin 2) * 2000 + 1 * (j 0).val; omega
    | ⟨1, _⟩ => show win0_0.index t (1 : Fin 2) * 128 + 1 * k.val = k.val; omega
  have h1 : ((cfg0.win 1).blk t).view.emb (Payload.rcol128 j k) = Cert.ReferenceIdeal.ReadP.ridx_main_v7 (((cfg0.win 2).blk t).view.emb j) k := by
    funext a; apply Fin.ext
    match a with
    | ⟨0, _⟩ => show win0_1.index t (0 : Fin 2) * 128 + 1 * k.val = k.val; omega
    | ⟨1, _⟩ => show win0_1.index t (1 : Fin 2) * 128 + 1 * (j 1).val = win0_2.index t (1 : Fin 2) * 128 + 1 * (j 1).val; omega
  rw [h0, h1]

/-- An index of the output array is in point t's block iff each coordinate is in the block's range on its axis. -/
theorem mem_blk (t : Fin cfg0.N) (i : S100000x128.Idx) :
    i ∈ ((cfg0.win 2).blk t).view.set ↔ ∀ a : Fin 2, win0_2.index t a * S2000x128.size a ≤ (i a).val ∧ (i a).val < win0_2.index t a * S2000x128.size a + S2000x128.size a := by
  show i ∈ ((View.whole main_v30).slice (win0_2.rect t)).set ↔ _
  rw [View.set_slice_whole, Rect.mem_set_unit]
  exact Iff.rfl

/-- Every index of the output is in the block of the point its row falls in, row / 2000. -/
theorem cover (i : S100000x128.Idx) : ∃ t : Fin cfg0.N, (cfg0.win 2).flush t = true ∧ i ∈ ((cfg0.win 2).blk t).view.set := by
  have hi0 : (i 0).val < 100000 := (i 0).isLt
  have hi1 : (i 1).val < 128 := (i 1).isLt
  obtain ⟨t, ht⟩ := idx_onto ⟨(i 0).val / 2000, by omega⟩
  have q0 : win0_2.index t (0 : Fin 2) = (i 0).val / 2000 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 2000 ≤ (i 0).val ∧ (i 0).val < win0_2.index t (0 : Fin 2) * 2000 + 2000; omega
  | ⟨1, _⟩ => show win0_2.index t (1 : Fin 2) * 128 ≤ (i 1).val ∧ (i 1).val < win0_2.index t (1 : Fin 2) * 128 + 128; omega

/-- The output array after the call is the product of the two input arrays as the call finds them. -/
theorem final (c : Dev nD) : (dat0 V c).arrAt 2 cfg0.N = prod (V c main_arg0) (V c main_arg3) :=
  (dat0 V c).arrAt_eq_of_cover 2 (prod (V c main_arg0) (V c main_arg3)) (fun t _ => flushed_eq V c t) cover

end Cert.KernelIdeal.Region0

end
-- ==== Proof.Region1.lean ====
/-
  Pallas call 1 (a row-tiled bias add and clamp at zero): its output array after the call, as ONE function of the two
  input arrays as the call finds them. Grid point t adds the one-row bias array to rows 2000·t … 2000·t + 1999 of the
  first array, takes the maximum with 0, and writes those rows of the output; the fifty blocks tile the output, so entry
  (r, q) of the output is max (a[r, q] + b[0, q]) 0.
-/
import proofs.«146065_j47545287966961_1_alg».proof.Proof.Gen.KernelIdeal.Frame
import proofs.«146065_j47545287966961_1_alg».proof.Proof.Payload

set_option maxRecDepth 16384

noncomputable section

namespace Cert.KernelIdeal.Region1

open Cert.KernelIdeal Cert.KernelIdeal.Gen
open Idealize.ShloMosaic Idealize.ShloMosaic.TcCoe Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The bias row's entry under an index of the array: (r, q) ↦ (0, q). -/
abbrev under (i : S100000x128.Idx) : S1x128.Idx := fun a => match a with
  | ⟨0, _⟩ => ⟨0, Nat.one_pos⟩
  | ⟨1, _⟩ => ⟨(i 1).val, (i 1).isLt⟩

/-- The array plus the bias row under every row, clamped below by 0. -/
abbrev biased (a0 : S100000x128.Idx → EReal) (a1 : S1x128.Idx → EReal) : S100000x128.Idx → EReal :=
  fun i => FloatOps.maximumf (F := Ideal) (FloatOps.addf (F := Ideal) (φ := .f32) (a0 i) (a1 (under i))) (FloatOps.ofBits .f32 0x00000000#32)

/-- The printed index maps over the grid: the first window and the output window move together down the rows, on
    block column 0; the bias window stays on block (0, 0). -/
theorem idx_facts : ∀ t : Fin cfg1.N, win1_0.index t (0 : Fin 2) = win1_2.index t (0 : Fin 2)
    ∧ win1_0.index t (1 : Fin 2) = 0
    ∧ win1_1.index t (0 : Fin 2) = 0
    ∧ win1_1.index t (1 : Fin 2) = 0
    ∧ win1_2.index t (1 : Fin 2) = 0 :=
  (by decide +kernel : ∀ t : Fin grid1.N, _)

/-- Every block row of the output is some point's. -/
theorem idx_onto : ∀ q0 : Fin 50, ∃ t : Fin cfg1.N, win1_2.index t = ![q0.val, 0] :=
  (by decide +kernel : ∀ q0 : Fin 50, ∃ t : Fin grid1.N, win1_2.index t = ![q0.val, 0])

set_option backward.isDefEq.respectTransparency.types false in
/-- What point t writes back is block t of the biased array. -/
theorem flushed_eq (c : Dev nD) (t : Fin cfg1.N) :
    (dat1 V c).flushed 2 t = ((cfg1.win 2).blk t).view.read (Elt Ideal) (biased (V c main_v43) (V c main_v44)) := by
  show (cfg1.win 2).cut (grid1.coords t) ((dat1 V c).after 2 t) = _
  rw [after1_2]
  unfold out1_2
  rw [View.canon_unit_zero hz]
  simp only [View.ld_unit_zero (S := S2000x128) hz, View.ld_unit_zero (S := S1x128) hz]
  obtain ⟨e0, e1, e2, e3, e4⟩ := idx_facts t
  funext j
  refine (Payload.k1_pay1_apply (F := Ideal) (iblk1 V c 0 t) (iblk1 V c 1 t) j).trans ?_
  show FloatOps.maximumf (F := Ideal) (FloatOps.addf (F := Ideal) (φ := .f32) (V c main_v43 (((cfg1.win 0).blk t).view.emb j)) (V c main_v44 (((cfg1.win 1).blk t).view.emb (Payload.brow128 j)))) (FloatOps.ofBits .f32 0x00000000#32)
    = FloatOps.maximumf (F := Ideal) (FloatOps.addf (F := Ideal) (φ := .f32) (V c main_v43 (((cfg1.win 2).blk t).view.emb j)) (V c main_v44 (under (((cfg1.win 2).blk t).view.emb j)))) (FloatOps.ofBits .f32 0x00000000#32)
  have h0 : ((cfg1.win 0).blk t).view.emb j = ((cfg1.win 2).blk t).view.emb j := by
    funext a; apply Fin.ext
    match a with
    | ⟨0, _⟩ => show win1_0.index t (0 : Fin 2) * 2000 + 1 * (j 0).val = win1_2.index t (0 : Fin 2) * 2000 + 1 * (j 0).val; omega
    | ⟨1, _⟩ => show win1_0.index t (1 : Fin 2) * 128 + 1 * (j 1).val = win1_2.index t (1 : Fin 2) * 128 + 1 * (j 1).val; omega
  have h1 : ((cfg1.win 1).blk t).view.emb (Payload.brow128 j) = under (((cfg1.win 2).blk t).view.emb j) := by
    funext a; apply Fin.ext
    match a with
    | ⟨0, _⟩ => show win1_1.index t (0 : Fin 2) * 1 + 1 * 0 = 0; omega
    | ⟨1, _⟩ => show win1_1.index t (1 : Fin 2) * 128 + 1 * (j 1).val = win1_2.index t (1 : Fin 2) * 128 + 1 * (j 1).val; omega
  rw [h0, h1]

/-- An index of the output array is in point t's block iff each coordinate is in the block's range on its axis. -/
theorem mem_blk (t : Fin cfg1.N) (i : S100000x128.Idx) :
    i ∈ ((cfg1.win 2).blk t).view.set ↔ ∀ a : Fin 2, win1_2.index t a * S2000x128.size a ≤ (i a).val ∧ (i a).val < win1_2.index t a * S2000x128.size a + S2000x128.size a := by
  show i ∈ ((View.whole main_v45).slice (win1_2.rect t)).set ↔ _
  rw [View.set_slice_whole, Rect.mem_set_unit]
  exact Iff.rfl

/-- Every index of the output is in the block of the point its row falls in, row / 2000. -/
theorem cover (i : S100000x128.Idx) : ∃ t : Fin cfg1.N, (cfg1.win 2).flush t = true ∧ i ∈ ((cfg1.win 2).blk t).view.set := by
  have hi0 : (i 0).val < 100000 := (i 0).isLt
  have hi1 : (i 1).val < 128 := (i 1).isLt
  obtain ⟨t, ht⟩ := idx_onto ⟨(i 0).val / 2000, by omega⟩
  have q0 : win1_2.index t (0 : Fin 2) = (i 0).val / 2000 := congrFun ht 0
  have q1 : win1_2.index t (1 : Fin 2) = 0 := congrFun ht 1
  refine ⟨t, flush1_2 t, ?_⟩
  rw [mem_blk]
  intro a
  match a with
  | ⟨0, _⟩ => show win1_2.index t (0 : Fin 2) * 2000 ≤ (i 0).val ∧ (i 0).val < win1_2.index t (0 : Fin 2) * 2000 + 2000; omega
  | ⟨1, _⟩ => show win1_2.index t (1 : Fin 2) * 128 ≤ (i 1).val ∧ (i 1).val < win1_2.index t (1 : Fin 2) * 128 + 128; omega

/-- The output array after the call is the biased first array, both as the call finds them. -/
theorem final (c : Dev nD) : (dat1 V c).arrAt 2 cfg1.N = biased (V c main_v43) (V c main_v44) :=
  (dat1 V c).arrAt_eq_of_cover 2 (biased (V c main_v43) (V c main_v44)) (fun t _ => flushed_eq V c t) cover

end Cert.KernelIdeal.Region1

end
-- ==== Proof.Region2.lean ====
/-
  Pallas call 2 (a row-tiled matrix product): its output array after the call, as ONE function of the two input
  arrays as the call finds them. Grid point t multiplies rows 2000·t … 2000·t + 1999 of the left array by the whole
  right array and writes rows 2000·t … 2000·t + 1999 of the output; the fifty blocks tile the output, so entry (r, q)
  of the output is the sum over k of left[r, k] · right[k, q].
-/
import proofs.«146065_j47545287966961_1_alg».proof.Proof.Gen.KernelIdeal.Frame
import proofs.«146065_j47545287966961_1_alg».proof.Proof.Payload
import proofs.«146065_j47545287966961_1_alg».proof.Proof.ReferenceReadP

set_option maxRecDepth 16384

noncomputable section

namespace Cert.KernelIdeal.Region2

open Cert.KernelIdeal Cert.KernelIdeal.Gen
open Idealize.ShloMosaic Idealize.ShloMosaic.TcCoe Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The product of a left array and a right array, entry by entry: (r, q) ↦ ∑ k, left[r, k] · right[k, q]. -/
abbrev prod (a0 : S100000x128.Idx → EReal) (a1 : S128x64.Idx → EReal) : S100000x64.Idx → EReal :=
  fun i => ∑ k : Fin 128, a0 (Cert.ReferenceIdeal.ReadP.lidx_main_v55 i k) * a1 (Cert.ReferenceIdeal.ReadP.ridx_main_v55 i k)

/-- The two input arrays as the call finds them, as functions from indices to extended reals. -/
abbrev leftArr (c : Dev nD) : S100000x128.Idx → EReal := V c main_v45
abbrev rightArr (c : Dev nD) : S128x64.Idx → EReal := V c main_arg5

/-- The printed index maps over the grid: the left window and the output window move together down the rows, on
    block column 0; the right window stays on block (0, 0). -/
theorem idx_facts : ∀ t : Fin cfg2.N, win2_0.index t (0 : Fin 2) = win2_2.index t (0 : Fin 2)
    ∧ win2_0.index t (1 : Fin 2) = 0
    ∧ win2_1.index t (0 : Fin 2) = 0
    ∧ win2_1.index t (1 : Fin 2) = 0
    ∧ win2_2.index t (1 : Fin 2) = 0 :=
  (by decide +kernel : ∀ t : Fin grid2.N, _)

/-- Every block row of the output is some point's. -/
theorem idx_onto : ∀ q0 : Fin 50, ∃ t : Fin cfg2.N, win2_2.index t = ![q0.val, 0] :=
  (by decide +kernel : ∀ q0 : Fin 50, ∃ t : Fin grid2.N, win2_2.index t = ![q0.val, 0])

set_option backward.isDefEq.respectTransparency.types false in
/-- What point t writes back is block t of the product of the two input arrays. -/
theorem flushed_eq (c : Dev nD) (t : Fin cfg2.N) :
    (dat2 V c).flushed 2 t = ((cfg2.win 2).blk t).view.read (Elt Ideal) (prod (V c main_v45) (V c main_arg5)) := by
  show (cfg2.win 2).cut (grid2.coords t) ((dat2 V c).after 2 t) = _
  rw [after2_2]
  unfold out2_2
  rw [View.canon_unit_zero hz]
  simp only [View.ld_unit_zero (S := S2000x128) hz, View.ld_unit_zero (S := S128x64) hz]
  obtain ⟨e0, e1, e2, e3, e4⟩ := idx_facts t
  funext j
  refine (Payload.k2_pay1_apply (iblk2 V c 0 t) (iblk2 V c 1 t) j).trans ?_
  show (∑ k : Fin 128, leftArr V c (((cfg2.win 0).blk t).view.emb (Payload.lrow64 j k)) * rightArr V c (((cfg2.win 1).blk t).view.emb (Payload.rcol64 j k)))
    = ∑ k : Fin 128, leftArr V c (Cert.ReferenceIdeal.ReadP.lidx_main_v55 (((cfg2.win 2).blk t).view.emb j) k) * rightArr V c (Cert.ReferenceIdeal.ReadP.ridx_main_v55 (((cfg2.win 2).blk t).view.emb j) k)
  refine Finset.sum_congr rfl fun k _ => ?_
  have h0 : ((cfg2.win 0).blk t).view.emb (Payload.lrow64 j k) = Cert.ReferenceIdeal.ReadP.lidx_main_v55 (((cfg2.win 2).blk t).view.emb j) k := by
    funext a; apply Fin.ext
    match a with
    | ⟨0, _⟩ => show win2_0.index t (0 : Fin 2) * 2000 + 1 * (j 0).val = win2_2.index t (0 : Fin 2) * 2000 + 1 * (j 0).val; omega
    | ⟨1, _⟩ => show win2_0.index t (1 : Fin 2) * 128 + 1 * k.val = k.val; omega
  have h1 : ((cfg2.win 1).blk t).view.emb (Payload.rcol64 j k) = Cert.ReferenceIdeal.ReadP.ridx_main_v55 (((cfg2.win 2).blk t).view.emb j) k := by
    funext a; apply Fin.ext
    match a with
    | ⟨0, _⟩ => show win2_1.index t (0 : Fin 2) * 128 + 1 * k.val = k.val; omega
    | ⟨1, _⟩ => show win2_1.index t (1 : Fin 2) * 64 + 1 * (j 1).val = win2_2.index t (1 : Fin 2) * 64 + 1 * (j 1).val; omega
  rw [h0, h1]

/-- An index of the output array is in point t's block iff each coordinate is in the block's range on its axis. -/
theorem mem_blk (t : Fin cfg2.N) (i : S100000x64.Idx) :
    i ∈ ((cfg2.win 2).blk t).view.set ↔ ∀ a : Fin 2, win2_2.index t a * S2000x64.size a ≤ (i a).val ∧ (i a).val < win2_2.index t a * S2000x64.size a + S2000x64.size a := by
  show i ∈ ((View.whole main_v46).slice (win2_2.rect t)).set ↔ _
  rw [View.set_slice_whole, Rect.mem_set_unit]
  exact Iff.rfl

/-- Every index of the output is in the block of the point its row falls in, row / 2000. -/
theorem cover (i : S100000x64.Idx) : ∃ t : Fin cfg2.N, (cfg2.win 2).flush t = true ∧ i ∈ ((cfg2.win 2).blk t).view.set := by
  have hi0 : (i 0).val < 100000 := (i 0).isLt
  have hi1 : (i 1).val < 64 := (i 1).isLt
  obtain ⟨t, ht⟩ := idx_onto ⟨(i 0).val / 2000, by omega⟩
  have q0 : win2_2.index t (0 : Fin 2) = (i 0).val / 2000 := congrFun ht 0
  have q1 : win2_2.index t (1 : Fin 2) = 0 := congrFun ht 1
  refine ⟨t, flush2_2 t, ?_⟩
  rw [mem_blk]
  intro a
  match a with
  | ⟨0, _⟩ => show win2_2.index t (0 : Fin 2) * 2000 ≤ (i 0).val ∧ (i 0).val < win2_2.index t (0 : Fin 2) * 2000 + 2000; omega
  | ⟨1, _⟩ => show win2_2.index t (1 : Fin 2) * 64 ≤ (i 1).val ∧ (i 1).val < win2_2.index t (1 : Fin 2) * 64 + 64; omega

/-- The output array after the call is the product of the two input arrays as the call finds them. -/
theorem final (c : Dev nD) : (dat2 V c).arrAt 2 cfg2.N = prod (V c main_v45) (V c main_arg5) :=
  (dat2 V c).arrAt_eq_of_cover 2 (prod (V c main_v45) (V c main_arg5)) (fun t _ => flushed_eq V c t) cover

end Cert.KernelIdeal.Region2

end
-- ==== Proof.Region3.lean ====
/-
  Pallas call 3 (a row-tiled bias add): its output array after the call, as ONE function of the two
  input arrays as the call finds them. Grid point t adds the one-row bias array to rows 2000·t … 2000·t + 1999 of the
  first array and writes those rows of the output; the fifty blocks tile the output, so entry
  (r, q) of the output is a[r, q] + b[0, q].
-/
import proofs.«146065_j47545287966961_1_alg».proof.Proof.Gen.KernelIdeal.Frame
import proofs.«146065_j47545287966961_1_alg».proof.Proof.Payload

set_option maxRecDepth 16384

noncomputable section

namespace Cert.KernelIdeal.Region3

open Cert.KernelIdeal Cert.KernelIdeal.Gen
open Idealize.ShloMosaic Idealize.ShloMosaic.TcCoe Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The bias row's entry under an index of the array: (r, q) ↦ (0, q). -/
abbrev under (i : S100000x64.Idx) : S1x64.Idx := fun a => match a with
  | ⟨0, _⟩ => ⟨0, Nat.one_pos⟩
  | ⟨1, _⟩ => ⟨(i 1).val, (i 1).isLt⟩

/-- The array plus the bias row under every row. -/
abbrev biased (a0 : S100000x64.Idx → EReal) (a1 : S1x64.Idx → EReal) : S100000x64.Idx → EReal :=
  fun i => FloatOps.addf (F := Ideal) (φ := .f32) (a0 i) (a1 (under i))

/-- The printed index maps over the grid: the first window and the output window move together down the rows, on
    block column 0; the bias window stays on block (0, 0). -/
theorem idx_facts : ∀ t : Fin cfg3.N, win3_0.index t (0 : Fin 2) = win3_2.index t (0 : Fin 2)
    ∧ win3_0.index t (1 : Fin 2) = 0
    ∧ win3_1.index t (0 : Fin 2) = 0
    ∧ win3_1.index t (1 : Fin 2) = 0
    ∧ win3_2.index t (1 : Fin 2) = 0 :=
  (by decide +kernel : ∀ t : Fin grid3.N, _)

/-- Every block row of the output is some point's. -/
theorem idx_onto : ∀ q0 : Fin 50, ∃ t : Fin cfg3.N, win3_2.index t = ![q0.val, 0] :=
  (by decide +kernel : ∀ q0 : Fin 50, ∃ t : Fin grid3.N, win3_2.index t = ![q0.val, 0])

set_option backward.isDefEq.respectTransparency.types false in
/-- What point t writes back is block t of the biased array. -/
theorem flushed_eq (c : Dev nD) (t : Fin cfg3.N) :
    (dat3 V c).flushed 2 t = ((cfg3.win 2).blk t).view.read (Elt Ideal) (biased (V c main_v59) (V c main_v60)) := by
  show (cfg3.win 2).cut (grid3.coords t) ((dat3 V c).after 2 t) = _
  rw [after3_2]
  unfold out3_2
  rw [View.canon_unit_zero hz]
  simp only [View.ld_unit_zero (S := S2000x64) hz, View.ld_unit_zero (S := S1x64) hz]
  obtain ⟨e0, e1, e2, e3, e4⟩ := idx_facts t
  funext j
  refine (Payload.k3_pay1_apply (F := Ideal) (iblk3 V c 0 t) (iblk3 V c 1 t) j).trans ?_
  show FloatOps.addf (F := Ideal) (φ := .f32) (V c main_v59 (((cfg3.win 0).blk t).view.emb j)) (V c main_v60 (((cfg3.win 1).blk t).view.emb (Payload.brow64 j)))
    = FloatOps.addf (F := Ideal) (φ := .f32) (V c main_v59 (((cfg3.win 2).blk t).view.emb j)) (V c main_v60 (under (((cfg3.win 2).blk t).view.emb j)))
  have h0 : ((cfg3.win 0).blk t).view.emb j = ((cfg3.win 2).blk t).view.emb j := by
    funext a; apply Fin.ext
    match a with
    | ⟨0, _⟩ => show win3_0.index t (0 : Fin 2) * 2000 + 1 * (j 0).val = win3_2.index t (0 : Fin 2) * 2000 + 1 * (j 0).val; omega
    | ⟨1, _⟩ => show win3_0.index t (1 : Fin 2) * 64 + 1 * (j 1).val = win3_2.index t (1 : Fin 2) * 64 + 1 * (j 1).val; omega
  have h1 : ((cfg3.win 1).blk t).view.emb (Payload.brow64 j) = under (((cfg3.win 2).blk t).view.emb j) := by
    funext a; apply Fin.ext
    match a with
    | ⟨0, _⟩ => show win3_1.index t (0 : Fin 2) * 1 + 1 * 0 = 0; omega
    | ⟨1, _⟩ => show win3_1.index t (1 : Fin 2) * 64 + 1 * (j 1).val = win3_2.index t (1 : Fin 2) * 64 + 1 * (j 1).val; omega
  rw [h0, h1]

/-- An index of the output array is in point t's block iff each coordinate is in the block's range on its axis. -/
theorem mem_blk (t : Fin cfg3.N) (i : S100000x64.Idx) :
    i ∈ ((cfg3.win 2).blk t).view.set ↔ ∀ a : Fin 2, win3_2.index t a * S2000x64.size a ≤ (i a).val ∧ (i a).val < win3_2.index t a * S2000x64.size a + S2000x64.size a := by
  show i ∈ ((View.whole main_v61).slice (win3_2.rect t)).set ↔ _
  rw [View.set_slice_whole, Rect.mem_set_unit]
  exact Iff.rfl

/-- Every index of the output is in the block of the point its row falls in, row / 2000. -/
theorem cover (i : S100000x64.Idx) : ∃ t : Fin cfg3.N, (cfg3.win 2).flush t = true ∧ i ∈ ((cfg3.win 2).blk t).view.set := by
  have hi0 : (i 0).val < 100000 := (i 0).isLt
  have hi1 : (i 1).val < 64 := (i 1).isLt
  obtain ⟨t, ht⟩ := idx_onto ⟨(i 0).val / 2000, by omega⟩
  have q0 : win3_2.index t (0 : Fin 2) = (i 0).val / 2000 := congrFun ht 0
  have q1 : win3_2.index t (1 : Fin 2) = 0 := congrFun ht 1
  refine ⟨t, flush3_2 t, ?_⟩
  rw [mem_blk]
  intro a
  match a with
  | ⟨0, _⟩ => show win3_2.index t (0 : Fin 2) * 2000 ≤ (i 0).val ∧ (i 0).val < win3_2.index t (0 : Fin 2) * 2000 + 2000; omega
  | ⟨1, _⟩ => show win3_2.index t (1 : Fin 2) * 64 ≤ (i 1).val ∧ (i 1).val < win3_2.index t (1 : Fin 2) * 64 + 64; omega

/-- The output array after the call is the biased first array, both as the call finds them. -/
theorem final (c : Dev nD) : (dat3 V c).arrAt 2 cfg3.N = biased (V c main_v59) (V c main_v60) :=
  (dat3 V c).arrAt_eq_of_cover 2 (biased (V c main_v59) (V c main_v60)) (fun t _ => flushed_eq V c t) cover

end Cert.KernelIdeal.Region3

end
-- ==== Proof.Region4.lean ====
/-
  Pallas call 4 (a row-tiled matrix product): its output array after the call, as ONE function of the two input
  arrays as the call finds them. Grid point t multiplies rows 2000·t … 2000·t + 1999 of the left array by the whole
  right array and writes rows 2000·t … 2000·t + 1999 of the output; the fifty blocks tile the output, so entry (r, q)
  of the output is the sum over k of left[r, k] · right[k, q].
-/
import proofs.«146065_j47545287966961_1_alg».proof.Proof.Gen.KernelIdeal.Frame
import proofs.«146065_j47545287966961_1_alg».proof.Proof.Payload
import proofs.«146065_j47545287966961_1_alg».proof.Proof.ReferenceReadP

set_option maxRecDepth 16384

noncomputable section

namespace Cert.KernelIdeal.Region4

open Cert.KernelIdeal Cert.KernelIdeal.Gen
open Idealize.ShloMosaic Idealize.ShloMosaic.TcCoe Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The product of a left array and a right array, entry by entry: (r, q) ↦ ∑ k, left[r, k] · right[k, q]. -/
abbrev prod (a0 : S100000x128.Idx → EReal) (a1 : S128x64.Idx → EReal) : S100000x64.Idx → EReal :=
  fun i => ∑ k : Fin 128, a0 (Cert.ReferenceIdeal.ReadP.lidx_main_v102 i k) * a1 (Cert.ReferenceIdeal.ReadP.ridx_main_v102 i k)

/-- The two input arrays as the call finds them, as functions from indices to extended reals. -/
abbrev leftArr (c : Dev nD) : S100000x128.Idx → EReal := V c main_v45
abbrev rightArr (c : Dev nD) : S128x64.Idx → EReal := V c main_arg7

/-- The printed index maps over the grid: the left window and the output window move together down the rows, on
    block column 0; the right window stays on block (0, 0). -/
theorem idx_facts : ∀ t : Fin cfg4.N, win4_0.index t (0 : Fin 2) = win4_2.index t (0 : Fin 2)
    ∧ win4_0.index t (1 : Fin 2) = 0
    ∧ win4_1.index t (0 : Fin 2) = 0
    ∧ win4_1.index t (1 : Fin 2) = 0
    ∧ win4_2.index t (1 : Fin 2) = 0 :=
  (by decide +kernel : ∀ t : Fin grid4.N, _)

/-- Every block row of the output is some point's. -/
theorem idx_onto : ∀ q0 : Fin 50, ∃ t : Fin cfg4.N, win4_2.index t = ![q0.val, 0] :=
  (by decide +kernel : ∀ q0 : Fin 50, ∃ t : Fin grid4.N, win4_2.index t = ![q0.val, 0])

set_option backward.isDefEq.respectTransparency.types false in
/-- What point t writes back is block t of the product of the two input arrays. -/
theorem flushed_eq (c : Dev nD) (t : Fin cfg4.N) :
    (dat4 V c).flushed 2 t = ((cfg4.win 2).blk t).view.read (Elt Ideal) (prod (V c main_v45) (V c main_arg7)) := by
  show (cfg4.win 2).cut (grid4.coords t) ((dat4 V c).after 2 t) = _
  rw [after4_2]
  unfold out4_2
  rw [View.canon_unit_zero hz]
  simp only [View.ld_unit_zero (S := S2000x128) hz, View.ld_unit_zero (S := S128x64) hz]
  obtain ⟨e0, e1, e2, e3, e4⟩ := idx_facts t
  funext j
  refine (Payload.k4_pay1_apply (iblk4 V c 0 t) (iblk4 V c 1 t) j).trans ?_
  show (∑ k : Fin 128, leftArr V c (((cfg4.win 0).blk t).view.emb (Payload.lrow64 j k)) * rightArr V c (((cfg4.win 1).blk t).view.emb (Payload.rcol64 j k)))
    = ∑ k : Fin 128, leftArr V c (Cert.ReferenceIdeal.ReadP.lidx_main_v102 (((cfg4.win 2).blk t).view.emb j) k) * rightArr V c (Cert.ReferenceIdeal.ReadP.ridx_main_v102 (((cfg4.win 2).blk t).view.emb j) k)
  refine Finset.sum_congr rfl fun k _ => ?_
  have h0 : ((cfg4.win 0).blk t).view.emb (Payload.lrow64 j k) = Cert.ReferenceIdeal.ReadP.lidx_main_v102 (((cfg4.win 2).blk t).view.emb j) k := by
    funext a; apply Fin.ext
    match a with
    | ⟨0, _⟩ => show win4_0.index t (0 : Fin 2) * 2000 + 1 * (j 0).val = win4_2.index t (0 : Fin 2) * 2000 + 1 * (j 0).val; omega
    | ⟨1, _⟩ => show win4_0.index t (1 : Fin 2) * 128 + 1 * k.val = k.val; omega
  have h1 : ((cfg4.win 1).blk t).view.emb (Payload.rcol64 j k) = Cert.ReferenceIdeal.ReadP.ridx_main_v102 (((cfg4.win 2).blk t).view.emb j) k := by
    funext a; apply Fin.ext
    match a with
    | ⟨0, _⟩ => show win4_1.index t (0 : Fin 2) * 128 + 1 * k.val = k.val; omega
    | ⟨1, _⟩ => show win4_1.index t (1 : Fin 2) * 64 + 1 * (j 1).val = win4_2.index t (1 : Fin 2) * 64 + 1 * (j 1).val; omega
  rw [h0, h1]

/-- An index of the output array is in point t's block iff each coordinate is in the block's range on its axis. -/
theorem mem_blk (t : Fin cfg4.N) (i : S100000x64.Idx) :
    i ∈ ((cfg4.win 2).blk t).view.set ↔ ∀ a : Fin 2, win4_2.index t a * S2000x64.size a ≤ (i a).val ∧ (i a).val < win4_2.index t a * S2000x64.size a + S2000x64.size a := by
  show i ∈ ((View.whole main_v62).slice (win4_2.rect t)).set ↔ _
  rw [View.set_slice_whole, Rect.mem_set_unit]
  exact Iff.rfl

/-- Every index of the output is in the block of the point its row falls in, row / 2000. -/
theorem cover (i : S100000x64.Idx) : ∃ t : Fin cfg4.N, (cfg4.win 2).flush t = true ∧ i ∈ ((cfg4.win 2).blk t).view.set := by
  have hi0 : (i 0).val < 100000 := (i 0).isLt
  have hi1 : (i 1).val < 64 := (i 1).isLt
  obtain ⟨t, ht⟩ := idx_onto ⟨(i 0).val / 2000, by omega⟩
  have q0 : win4_2.index t (0 : Fin 2) = (i 0).val / 2000 := congrFun ht 0
  have q1 : win4_2.index t (1 : Fin 2) = 0 := congrFun ht 1
  refine ⟨t, flush4_2 t, ?_⟩
  rw [mem_blk]
  intro a
  match a with
  | ⟨0, _⟩ => show win4_2.index t (0 : Fin 2) * 2000 ≤ (i 0).val ∧ (i 0).val < win4_2.index t (0 : Fin 2) * 2000 + 2000; omega
  | ⟨1, _⟩ => show win4_2.index t (1 : Fin 2) * 64 ≤ (i 1).val ∧ (i 1).val < win4_2.index t (1 : Fin 2) * 64 + 64; omega

/-- The output array after the call is the product of the two input arrays as the call finds them. -/
theorem final (c : Dev nD) : (dat4 V c).arrAt 2 cfg4.N = prod (V c main_v45) (V c main_arg7) :=
  (dat4 V c).arrAt_eq_of_cover 2 (prod (V c main_v45) (V c main_arg7)) (fun t _ => flushed_eq V c t) cover

end Cert.KernelIdeal.Region4

end
-- ==== Proof.Region5.lean ====
/-
  Pallas call 5 (a row-tiled bias add): its output array after the call, as ONE function of the two
  input arrays as the call finds them. Grid point t adds the one-row bias array to rows 2000·t … 2000·t + 1999 of the
  first array and writes those rows of the output; the fifty blocks tile the output, so entry
  (r, q) of the output is a[r, q] + b[0, q].
-/
import proofs.«146065_j47545287966961_1_alg».proof.Proof.Gen.KernelIdeal.Frame
import proofs.«146065_j47545287966961_1_alg».proof.Proof.Payload

set_option maxRecDepth 16384

noncomputable section

namespace Cert.KernelIdeal.Region5

open Cert.KernelIdeal Cert.KernelIdeal.Gen
open Idealize.ShloMosaic Idealize.ShloMosaic.TcCoe Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The bias row's entry under an index of the array: (r, q) ↦ (0, q). -/
abbrev under (i : S100000x64.Idx) : S1x64.Idx := fun a => match a with
  | ⟨0, _⟩ => ⟨0, Nat.one_pos⟩
  | ⟨1, _⟩ => ⟨(i 1).val, (i 1).isLt⟩

/-- The array plus the bias row under every row. -/
abbrev biased (a0 : S100000x64.Idx → EReal) (a1 : S1x64.Idx → EReal) : S100000x64.Idx → EReal :=
  fun i => FloatOps.addf (F := Ideal) (φ := .f32) (a0 i) (a1 (under i))

/-- The printed index maps over the grid: the first window and the output window move together down the rows, on
    block column 0; the bias window stays on block (0, 0). -/
theorem idx_facts : ∀ t : Fin cfg5.N, win5_0.index t (0 : Fin 2) = win5_2.index t (0 : Fin 2)
    ∧ win5_0.index t (1 : Fin 2) = 0
    ∧ win5_1.index t (0 : Fin 2) = 0
    ∧ win5_1.index t (1 : Fin 2) = 0
    ∧ win5_2.index t (1 : Fin 2) = 0 :=
  (by decide +kernel : ∀ t : Fin grid5.N, _)

/-- Every block row of the output is some point's. -/
theorem idx_onto : ∀ q0 : Fin 50, ∃ t : Fin cfg5.N, win5_2.index t = ![q0.val, 0] :=
  (by decide +kernel : ∀ q0 : Fin 50, ∃ t : Fin grid5.N, win5_2.index t = ![q0.val, 0])

set_option backward.isDefEq.respectTransparency.types false in
/-- What point t writes back is block t of the biased array. -/
theorem flushed_eq (c : Dev nD) (t : Fin cfg5.N) :
    (dat5 V c).flushed 2 t = ((cfg5.win 2).blk t).view.read (Elt Ideal) (biased (V c main_v75) (V c main_v76)) := by
  show (cfg5.win 2).cut (grid5.coords t) ((dat5 V c).after 2 t) = _
  rw [after5_2]
  unfold out5_2
  rw [View.canon_unit_zero hz]
  simp only [View.ld_unit_zero (S := S2000x64) hz, View.ld_unit_zero (S := S1x64) hz]
  obtain ⟨e0, e1, e2, e3, e4⟩ := idx_facts t
  funext j
  refine (Payload.k5_pay1_apply (F := Ideal) (iblk5 V c 0 t) (iblk5 V c 1 t) j).trans ?_
  show FloatOps.addf (F := Ideal) (φ := .f32) (V c main_v75 (((cfg5.win 0).blk t).view.emb j)) (V c main_v76 (((cfg5.win 1).blk t).view.emb (Payload.brow64 j)))
    = FloatOps.addf (F := Ideal) (φ := .f32) (V c main_v75 (((cfg5.win 2).blk t).view.emb j)) (V c main_v76 (under (((cfg5.win 2).blk t).view.emb j)))
  have h0 : ((cfg5.win 0).blk t).view.emb j = ((cfg5.win 2).blk t).view.emb j := by
    funext a; apply Fin.ext
    match a with
    | ⟨0, _⟩ => show win5_0.index t (0 : Fin 2) * 2000 + 1 * (j 0).val = win5_2.index t (0 : Fin 2) * 2000 + 1 * (j 0).val; omega
    | ⟨1, _⟩ => show win5_0.index t (1 : Fin 2) * 64 + 1 * (j 1).val = win5_2.index t (1 : Fin 2) * 64 + 1 * (j 1).val; omega
  have h1 : ((cfg5.win 1).blk t).view.emb (Payload.brow64 j) = under (((cfg5.win 2).blk t).view.emb j) := by
    funext a; apply Fin.ext
    match a with
    | ⟨0, _⟩ => show win5_1.index t (0 : Fin 2) * 1 + 1 * 0 = 0; omega
    | ⟨1, _⟩ => show win5_1.index t (1 : Fin 2) * 64 + 1 * (j 1).val = win5_2.index t (1 : Fin 2) * 64 + 1 * (j 1).val; omega
  rw [h0, h1]

/-- An index of the output array is in point t's block iff each coordinate is in the block's range on its axis. -/
theorem mem_blk (t : Fin cfg5.N) (i : S100000x64.Idx) :
    i ∈ ((cfg5.win 2).blk t).view.set ↔ ∀ a : Fin 2, win5_2.index t a * S2000x64.size a ≤ (i a).val ∧ (i a).val < win5_2.index t a * S2000x64.size a + S2000x64.size a := by
  show i ∈ ((View.whole main_v77).slice (win5_2.rect t)).set ↔ _
  rw [View.set_slice_whole, Rect.mem_set_unit]
  exact Iff.rfl

/-- Every index of the output is in the block of the point its row falls in, row / 2000. -/
theorem cover (i : S100000x64.Idx) : ∃ t : Fin cfg5.N, (cfg5.win 2).flush t = true ∧ i ∈ ((cfg5.win 2).blk t).view.set := by
  have hi0 : (i 0).val < 100000 := (i 0).isLt
  have hi1 : (i 1).val < 64 := (i 1).isLt
  obtain ⟨t, ht⟩ := idx_onto ⟨(i 0).val / 2000, by omega⟩
  have q0 : win5_2.index t (0 : Fin 2) = (i 0).val / 2000 := congrFun ht 0
  have q1 : win5_2.index t (1 : Fin 2) = 0 := congrFun ht 1
  refine ⟨t, flush5_2 t, ?_⟩
  rw [mem_blk]
  intro a
  match a with
  | ⟨0, _⟩ => show win5_2.index t (0 : Fin 2) * 2000 ≤ (i 0).val ∧ (i 0).val < win5_2.index t (0 : Fin 2) * 2000 + 2000; omega
  | ⟨1, _⟩ => show win5_2.index t (1 : Fin 2) * 64 ≤ (i 1).val ∧ (i 1).val < win5_2.index t (1 : Fin 2) * 64 + 64; omega

/-- The output array after the call is the biased first array, both as the call finds them. -/
theorem final (c : Dev nD) : (dat5 V c).arrAt 2 cfg5.N = biased (V c main_v75) (V c main_v76) :=
  (dat5 V c).arrAt_eq_of_cover 2 (biased (V c main_v75) (V c main_v76)) (fun t _ => flushed_eq V c t) cover

end Cert.KernelIdeal.Region5

end
-- ==== Proof.Chain.lean ====
/-
  The idealized kernel's fold of buffer contents, read boundary by boundary, against the reference's stages.
  Before the first pallas_call the host operations compute the edge lists with self loops (sources, targets) and the
  symmetric normalisation dinv[source] · dinv[target] of every edge, exactly as the reference's first layer does. Each
  matrix-product call leaves feat · W, the product the reference's dot_general computes (the same sum over the 128
  contracted coordinates); the host operations between the calls gather the rows at the sources, scale them by the
  normalisation and scatter-add them at the targets, the reference's operations term for term; each bias call leaves
  the aggregated array plus the bias row (then max with 0 in the first layer), the reference's broadcast-and-add. The
  reference recomputes the edge lists and the normalisation in its second and third layer from the same edge array:
  the same terms. So the two result buffers end at the reference's two result stages of the argument arrays.
-/
import proofs.«146065_j47545287966961_1_alg».proof.Proof.Region0
import proofs.«146065_j47545287966961_1_alg».proof.Proof.Region1
import proofs.«146065_j47545287966961_1_alg».proof.Proof.Region2
import proofs.«146065_j47545287966961_1_alg».proof.Proof.Region3
import proofs.«146065_j47545287966961_1_alg».proof.Proof.Region4
import proofs.«146065_j47545287966961_1_alg».proof.Proof.Region5
import Idealize.ShloMosaic.Lib.StableHlo.Run

set_option maxRecDepth 16384

noncomputable section

namespace Cert.KernelIdeal.Chain

open Cert.KernelIdeal Cert.KernelIdeal.Gen
open Idealize.ShloMosaic Idealize.ShloMosaic.TcCoe Idealize.SL.Sem Idealize.ShloMosaic.StableHlo

/-- One stretch of host operations read at a buffer: the operations that write it applied to what the stretch finds
    at their operands, a buffer no operation of the stretch writes at what the stretch finds there. -/
macro "host_read" : tactic =>
  `(tactic| (try simp only [hostOps0, hostOps0_1, hostOps0_2, hostOps1, hostOps3, hostOps5]
             after_results_simp))

variable (m : (ℓ : Loc nD τ sig) → Buf (Elt Ideal) ℓ) (ρ : Dev nD → PrngReg) (c : Dev nD)

/-! ## Before the first call: the arguments as launched, the edge lists and the normalisation -/

/-! ### the arguments, and the edge lists with self loops, as the first call finds them -/

theorem w3_arg0 : W3 m ρ c (Proc.devRef .tc main_arg0) = (m ((c : Thread nD τ).loc main_arg0)) := by
  show StableHlo.after hostOps0_2 (StableHlo.after hostOps0_1 (StableHlo.after hostOps0 (W0 m ρ c))) (Proc.devRef .tc main_arg0) = _
  host_read <;> rfl

theorem w3_arg3 : W3 m ρ c (Proc.devRef .tc main_arg3) = (m ((c : Thread nD τ).loc main_arg3)) := by
  show StableHlo.after hostOps0_2 (StableHlo.after hostOps0_1 (StableHlo.after hostOps0 (W0 m ρ c))) (Proc.devRef .tc main_arg3) = _
  host_read <;> rfl

theorem w3_arg4 : W3 m ρ c (Proc.devRef .tc main_arg4) = (m ((c : Thread nD τ).loc main_arg4)) := by
  show StableHlo.after hostOps0_2 (StableHlo.after hostOps0_1 (StableHlo.after hostOps0 (W0 m ρ c))) (Proc.devRef .tc main_arg4) = _
  host_read <;> rfl

theorem w3_arg5 : W3 m ρ c (Proc.devRef .tc main_arg5) = (m ((c : Thread nD τ).loc main_arg5)) := by
  show StableHlo.after hostOps0_2 (StableHlo.after hostOps0_1 (StableHlo.after hostOps0 (W0 m ρ c))) (Proc.devRef .tc main_arg5) = _
  host_read <;> rfl

theorem w3_arg6 : W3 m ρ c (Proc.devRef .tc main_arg6) = (m ((c : Thread nD τ).loc main_arg6)) := by
  show StableHlo.after hostOps0_2 (StableHlo.after hostOps0_1 (StableHlo.after hostOps0 (W0 m ρ c))) (Proc.devRef .tc main_arg6) = _
  host_read <;> rfl

theorem w3_arg7 : W3 m ρ c (Proc.devRef .tc main_arg7) = (m ((c : Thread nD τ).loc main_arg7)) := by
  show StableHlo.after hostOps0_2 (StableHlo.after hostOps0_1 (StableHlo.after hostOps0 (W0 m ρ c))) (Proc.devRef .tc main_arg7) = _
  host_read <;> rfl

theorem w3_arg8 : W3 m ρ c (Proc.devRef .tc main_arg8) = (m ((c : Thread nD τ).loc main_arg8)) := by
  show StableHlo.after hostOps0_2 (StableHlo.after hostOps0_1 (StableHlo.after hostOps0 (W0 m ρ c))) (Proc.devRef .tc main_arg8) = _
  host_read <;> rfl

theorem w3_v5 : W3 m ρ c (Proc.devRef .tc main_v5) = Cert.ReferenceIdeal.ReadP.val_main_v5 (m ((c : Thread nD τ).loc main_arg1)) := by
  show StableHlo.after hostOps0_2 (StableHlo.after hostOps0_1 (StableHlo.after hostOps0 (W0 m ρ c))) (Proc.devRef .tc main_v5) = _
  host_read <;> rfl

theorem w3_v6 : W3 m ρ c (Proc.devRef .tc main_v6) = Cert.ReferenceIdeal.ReadP.val_main_v6 (m ((c : Thread nD τ).loc main_arg1)) := by
  show StableHlo.after hostOps0_2 (StableHlo.after hostOps0_1 (StableHlo.after hostOps0 (W0 m ρ c))) (Proc.devRef .tc main_v6) = _
  host_read <;> rfl

/-! ### the normalisation, stretch by stretch: in-degrees compared with 0 and their inverse square roots; the where; dinv[source] · dinv[target] -/

theorem w1_v12 : W1 m ρ c (Proc.devRef .tc main_v12) = Cert.ReferenceIdeal.ReadP.val_main_v13 (m ((c : Thread nD τ).loc main_arg1)) := by
  show StableHlo.after hostOps0 (W0 m ρ c) (Proc.devRef .tc main_v12) = _
  host_read <;> rfl

theorem w1_v13 : W1 m ρ c (Proc.devRef .tc main_v13) = Cert.ReferenceIdeal.ReadP.val_main_v14 (m ((c : Thread nD τ).loc main_arg1)) := by
  show StableHlo.after hostOps0 (W0 m ρ c) (Proc.devRef .tc main_v13) = _
  host_read <;> rfl

theorem w1_cst_2 : W1 m ρ c (Proc.devRef .tc main_cst_2) = Cert.ReferenceIdeal.ReadP.val_main_cst_2 (F := Ideal) := by
  show StableHlo.after hostOps0 (W0 m ρ c) (Proc.devRef .tc main_cst_2) = _
  host_read <;> rfl

/-- The where, read over any contents of its three operands: select between the second and a splat of the third. -/
theorem where_read (Wp : Valuation τ sig (Elt Ideal)) (a : (⟨S100000, .i1⟩ : BufTy).Contents (Elt Ideal))
    (b : (⟨S100000, .f32⟩ : BufTy).Contents (Elt Ideal)) (z : (⟨S_, .f32⟩ : BufTy).Contents (Elt Ideal))
    (h1 : Wp (Proc.devRef .tc main_v12) = a) (h2 : Wp (Proc.devRef .tc main_v13) = b) (h3 : Wp (Proc.devRef .tc main_cst_2) = z) :
    StableHlo.after hostOps0_1 Wp (Proc.devRef .tc main_v14) = select a b (broadcastInDim S100000 ![] bcast_S_S100000 z) := by
  host_read
  rw [h1, h2, h3]
  rfl

theorem w2_v14 : W2 m ρ c (Proc.devRef .tc main_v14) = Cert.ReferenceIdeal.ReadP.val_main_v15 (m ((c : Thread nD τ).loc main_arg1)) :=
  (where_read (W1 m ρ c) _ _ _ (w1_v12 m ρ c) (w1_v13 m ρ c) (w1_cst_2 m ρ c)).trans rfl

theorem w2_v5 : W2 m ρ c (Proc.devRef .tc main_v5) = Cert.ReferenceIdeal.ReadP.val_main_v5 (m ((c : Thread nD τ).loc main_arg1)) := by
  show StableHlo.after hostOps0_1 (StableHlo.after hostOps0 (W0 m ρ c)) (Proc.devRef .tc main_v5) = _
  host_read <;> rfl

theorem w2_v6 : W2 m ρ c (Proc.devRef .tc main_v6) = Cert.ReferenceIdeal.ReadP.val_main_v6 (m ((c : Thread nD τ).loc main_arg1)) := by
  show StableHlo.after hostOps0_1 (StableHlo.after hostOps0 (W0 m ρ c)) (Proc.devRef .tc main_v6) = _
  host_read <;> rfl

theorem w3_v29 : W3 m ρ c (Proc.devRef .tc main_v29) = Cert.ReferenceIdeal.ReadP.val_main_v30 (m ((c : Thread nD τ).loc main_arg1)) := by
  show StableHlo.after hostOps0_2 (W2 m ρ c) (Proc.devRef .tc main_v29) = _
  generalize hW : W2 m ρ c = Wp
  host_read
  subst hW
  rw [w2_v14 m ρ c, w2_v5 m ρ c, w2_v6 m ρ c]
  rfl

/-! ## The first layer's product, x · W1 -/

theorem w4_v30 : W4 m ρ c (Proc.devRef .tc main_v30) = Cert.ReferenceIdeal.ReadP.val_main_v7 (m ((c : Thread nD τ).loc main_arg0)) (m ((c : Thread nD τ).loc main_arg3)) := by
  refine (W4_arr m ρ c 2).trans ((Region0.final (V3 m ρ) c).trans ?_)
  funext i
  refine Eq.trans ?_ (Cert.ReferenceIdeal.ReadP.val_main_v7_apply (m ((c : Thread nD τ).loc main_arg0)) (m ((c : Thread nD τ).loc main_arg3)) i).symm
  have e0 : Region0.leftArr (V3 m ρ) c = (m ((c : Thread nD τ).loc main_arg0)) := w3_arg0 m ρ c
  have e1 : Region0.rightArr (V3 m ρ) c = (m ((c : Thread nD τ).loc main_arg3)) := w3_arg3 m ρ c
  show (∑ k : Fin 128, Region0.leftArr (V3 m ρ) c (Cert.ReferenceIdeal.ReadP.lidx_main_v7 i k) * Region0.rightArr (V3 m ρ) c (Cert.ReferenceIdeal.ReadP.ridx_main_v7 i k)) = _
  rw [e0, e1]

theorem w4_arg4 : W4 m ρ c (Proc.devRef .tc main_arg4) = (m ((c : Thread nD τ).loc main_arg4)) :=
  (W4_of_ne m ρ c main_arg4 (by decide)).trans (w3_arg4 m ρ c)

theorem w4_arg5 : W4 m ρ c (Proc.devRef .tc main_arg5) = (m ((c : Thread nD τ).loc main_arg5)) :=
  (W4_of_ne m ρ c main_arg5 (by decide)).trans (w3_arg5 m ρ c)

theorem w4_arg6 : W4 m ρ c (Proc.devRef .tc main_arg6) = (m ((c : Thread nD τ).loc main_arg6)) :=
  (W4_of_ne m ρ c main_arg6 (by decide)).trans (w3_arg6 m ρ c)

theorem w4_arg7 : W4 m ρ c (Proc.devRef .tc main_arg7) = (m ((c : Thread nD τ).loc main_arg7)) :=
  (W4_of_ne m ρ c main_arg7 (by decide)).trans (w3_arg7 m ρ c)

theorem w4_arg8 : W4 m ρ c (Proc.devRef .tc main_arg8) = (m ((c : Thread nD τ).loc main_arg8)) :=
  (W4_of_ne m ρ c main_arg8 (by decide)).trans (w3_arg8 m ρ c)

theorem w4_v5 : W4 m ρ c (Proc.devRef .tc main_v5) = Cert.ReferenceIdeal.ReadP.val_main_v5 (m ((c : Thread nD τ).loc main_arg1)) :=
  (W4_of_ne m ρ c main_v5 (by decide)).trans (w3_v5 m ρ c)

theorem w4_v6 : W4 m ρ c (Proc.devRef .tc main_v6) = Cert.ReferenceIdeal.ReadP.val_main_v6 (m ((c : Thread nD τ).loc main_arg1)) :=
  (W4_of_ne m ρ c main_v6 (by decide)).trans (w3_v6 m ρ c)

theorem w4_v29 : W4 m ρ c (Proc.devRef .tc main_v29) = Cert.ReferenceIdeal.ReadP.val_main_v30 (m ((c : Thread nD τ).loc main_arg1)) :=
  (W4_of_ne m ρ c main_v29 (by decide)).trans (w3_v29 m ρ c)

/-! ## Aggregated over the edges, and the bias row laid out -/

theorem w5_v43 : W5 m ρ c (Proc.devRef .tc main_v43) = Cert.ReferenceIdeal.ReadP.val_main_v43 (m ((c : Thread nD τ).loc main_arg0)) (m ((c : Thread nD τ).loc main_arg1)) (m ((c : Thread nD τ).loc main_arg3)) := by
  show StableHlo.after hostOps1 (W4 m ρ c) (Proc.devRef .tc main_v43) = _
  host_read
  rw [w4_v29 m ρ c, w4_v5 m ρ c, w4_v30 m ρ c, w4_v6 m ρ c]
  rfl

theorem w5_v44 : W5 m ρ c (Proc.devRef .tc main_v44) = shapeCast S1x128 (m ((c : Thread nD τ).loc main_arg4)) shapeCasts_S128_S1x128 := by
  show StableHlo.after hostOps1 (W4 m ρ c) (Proc.devRef .tc main_v44) = _
  host_read
  exact congrArg (fun z : (⟨S128, .f32⟩ : BufTy).Contents (Elt Ideal) => shapeCast S1x128 z shapeCasts_S128_S1x128) (w4_arg4 m ρ c)

theorem w5_arg5 : W5 m ρ c (Proc.devRef .tc main_arg5) = (m ((c : Thread nD τ).loc main_arg5)) := by
  show StableHlo.after hostOps1 (W4 m ρ c) (Proc.devRef .tc main_arg5) = _
  host_read
  exact w4_arg5 m ρ c

theorem w5_arg6 : W5 m ρ c (Proc.devRef .tc main_arg6) = (m ((c : Thread nD τ).loc main_arg6)) := by
  show StableHlo.after hostOps1 (W4 m ρ c) (Proc.devRef .tc main_arg6) = _
  host_read
  exact w4_arg6 m ρ c

theorem w5_arg7 : W5 m ρ c (Proc.devRef .tc main_arg7) = (m ((c : Thread nD τ).loc main_arg7)) := by
  show StableHlo.after hostOps1 (W4 m ρ c) (Proc.devRef .tc main_arg7) = _
  host_read
  exact w4_arg7 m ρ c

theorem w5_arg8 : W5 m ρ c (Proc.devRef .tc main_arg8) = (m ((c : Thread nD τ).loc main_arg8)) := by
  show StableHlo.after hostOps1 (W4 m ρ c) (Proc.devRef .tc main_arg8) = _
  host_read
  exact w4_arg8 m ρ c

theorem w5_v5 : W5 m ρ c (Proc.devRef .tc main_v5) = Cert.ReferenceIdeal.ReadP.val_main_v5 (m ((c : Thread nD τ).loc main_arg1)) := by
  show StableHlo.after hostOps1 (W4 m ρ c) (Proc.devRef .tc main_v5) = _
  host_read
  exact w4_v5 m ρ c

theorem w5_v6 : W5 m ρ c (Proc.devRef .tc main_v6) = Cert.ReferenceIdeal.ReadP.val_main_v6 (m ((c : Thread nD τ).loc main_arg1)) := by
  show StableHlo.after hostOps1 (W4 m ρ c) (Proc.devRef .tc main_v6) = _
  host_read
  exact w4_v6 m ρ c

theorem w5_v29 : W5 m ρ c (Proc.devRef .tc main_v29) = Cert.ReferenceIdeal.ReadP.val_main_v30 (m ((c : Thread nD τ).loc main_arg1)) := by
  show StableHlo.after hostOps1 (W4 m ρ c) (Proc.devRef .tc main_v29) = _
  host_read
  exact w4_v29 m ρ c

/-! ## The first layer's output, max (agg + b1) 0 -/

theorem w6_v45 : W6 m ρ c (Proc.devRef .tc main_v45) = Cert.ReferenceIdeal.ReadP.val_main_v47 (m ((c : Thread nD τ).loc main_arg0)) (m ((c : Thread nD τ).loc main_arg1)) (m ((c : Thread nD τ).loc main_arg3)) (m ((c : Thread nD τ).loc main_arg4)) := by
  refine (W6_arr m ρ c 2).trans ((Region1.final (V5 m ρ) c).trans ?_)
  funext i
  show FloatOps.maximumf (F := Ideal) (FloatOps.addf (F := Ideal) (φ := .f32) (W5 m ρ c (Proc.devRef .tc main_v43) i) (W5 m ρ c (Proc.devRef .tc main_v44) (Region1.under i))) (FloatOps.ofBits .f32 0x00000000#32) = _
  rw [w5_v43 m ρ c, w5_v44 m ρ c, Cert.ReferenceIdeal.ReadP.val_main_v47_apply, Cert.ReferenceIdeal.ReadP.val_main_v46_apply, Cert.ReferenceIdeal.ReadP.val_main_v45_apply, Cert.ReferenceIdeal.ReadP.val_main_v44_apply, Cert.ReferenceIdeal.ReadP.val_main_call1_v0_apply, Cert.ReferenceIdeal.ReadP.val_main_call1_cst_apply]
  refine congrArg (fun z => FloatOps.maximumf (F := Ideal) (FloatOps.addf (F := Ideal) (φ := .f32) _ z) _) ?_
  exact (shapeCast_addUnit_apply ![128] (m ((c : Thread nD τ).loc main_arg4)) _ (Region1.under i)).trans (congrArg (m ((c : Thread nD τ).loc main_arg4)) (funext fun a => by match a with | ⟨0, _⟩ => rfl))

theorem w6_arg5 : W6 m ρ c (Proc.devRef .tc main_arg5) = (m ((c : Thread nD τ).loc main_arg5)) :=
  (W6_of_ne m ρ c main_arg5 (by decide)).trans (w5_arg5 m ρ c)

theorem w6_arg6 : W6 m ρ c (Proc.devRef .tc main_arg6) = (m ((c : Thread nD τ).loc main_arg6)) :=
  (W6_of_ne m ρ c main_arg6 (by decide)).trans (w5_arg6 m ρ c)

theorem w6_arg7 : W6 m ρ c (Proc.devRef .tc main_arg7) = (m ((c : Thread nD τ).loc main_arg7)) :=
  (W6_of_ne m ρ c main_arg7 (by decide)).trans (w5_arg7 m ρ c)

theorem w6_arg8 : W6 m ρ c (Proc.devRef .tc main_arg8) = (m ((c : Thread nD τ).loc main_arg8)) :=
  (W6_of_ne m ρ c main_arg8 (by decide)).trans (w5_arg8 m ρ c)

theorem w6_v5 : W6 m ρ c (Proc.devRef .tc main_v5) = Cert.ReferenceIdeal.ReadP.val_main_v5 (m ((c : Thread nD τ).loc main_arg1)) :=
  (W6_of_ne m ρ c main_v5 (by decide)).trans (w5_v5 m ρ c)

theorem w6_v6 : W6 m ρ c (Proc.devRef .tc main_v6) = Cert.ReferenceIdeal.ReadP.val_main_v6 (m ((c : Thread nD τ).loc main_arg1)) :=
  (W6_of_ne m ρ c main_v6 (by decide)).trans (w5_v6 m ρ c)

theorem w6_v29 : W6 m ρ c (Proc.devRef .tc main_v29) = Cert.ReferenceIdeal.ReadP.val_main_v30 (m ((c : Thread nD τ).loc main_arg1)) :=
  (W6_of_ne m ρ c main_v29 (by decide)).trans (w5_v29 m ρ c)

/-! ## The second layer's product for mu, h1 · Wmu -/

theorem w7_v46 : W7 m ρ c (Proc.devRef .tc main_v46) = Cert.ReferenceIdeal.ReadP.val_main_v55 (m ((c : Thread nD τ).loc main_arg0)) (m ((c : Thread nD τ).loc main_arg1)) (m ((c : Thread nD τ).loc main_arg3)) (m ((c : Thread nD τ).loc main_arg4)) (m ((c : Thread nD τ).loc main_arg5)) := by
  refine (W7_arr m ρ c 2).trans ((Region2.final (V6 m ρ) c).trans ?_)
  funext i
  refine Eq.trans ?_ (Cert.ReferenceIdeal.ReadP.val_main_v55_apply (m ((c : Thread nD τ).loc main_arg0)) (m ((c : Thread nD τ).loc main_arg1)) (m ((c : Thread nD τ).loc main_arg3)) (m ((c : Thread nD τ).loc main_arg4)) (m ((c : Thread nD τ).loc main_arg5)) i).symm
  have e0 : Region2.leftArr (V6 m ρ) c = Cert.ReferenceIdeal.ReadP.val_main_v47 (m ((c : Thread nD τ).loc main_arg0)) (m ((c : Thread nD τ).loc main_arg1)) (m ((c : Thread nD τ).loc main_arg3)) (m ((c : Thread nD τ).loc main_arg4)) := w6_v45 m ρ c
  have e1 : Region2.rightArr (V6 m ρ) c = (m ((c : Thread nD τ).loc main_arg5)) := w6_arg5 m ρ c
  show (∑ k : Fin 128, Region2.leftArr (V6 m ρ) c (Cert.ReferenceIdeal.ReadP.lidx_main_v55 i k) * Region2.rightArr (V6 m ρ) c (Cert.ReferenceIdeal.ReadP.ridx_main_v55 i k)) = _
  rw [e0, e1]

theorem w7_arg6 : W7 m ρ c (Proc.devRef .tc main_arg6) = (m ((c : Thread nD τ).loc main_arg6)) :=
  (W7_of_ne m ρ c main_arg6 (by decide)).trans (w6_arg6 m ρ c)

theorem w7_arg7 : W7 m ρ c (Proc.devRef .tc main_arg7) = (m ((c : Thread nD τ).loc main_arg7)) :=
  (W7_of_ne m ρ c main_arg7 (by decide)).trans (w6_arg7 m ρ c)

theorem w7_arg8 : W7 m ρ c (Proc.devRef .tc main_arg8) = (m ((c : Thread nD τ).loc main_arg8)) :=
  (W7_of_ne m ρ c main_arg8 (by decide)).trans (w6_arg8 m ρ c)

theorem w7_v5 : W7 m ρ c (Proc.devRef .tc main_v5) = Cert.ReferenceIdeal.ReadP.val_main_v5 (m ((c : Thread nD τ).loc main_arg1)) :=
  (W7_of_ne m ρ c main_v5 (by decide)).trans (w6_v5 m ρ c)

theorem w7_v6 : W7 m ρ c (Proc.devRef .tc main_v6) = Cert.ReferenceIdeal.ReadP.val_main_v6 (m ((c : Thread nD τ).loc main_arg1)) :=
  (W7_of_ne m ρ c main_v6 (by decide)).trans (w6_v6 m ρ c)

theorem w7_v29 : W7 m ρ c (Proc.devRef .tc main_v29) = Cert.ReferenceIdeal.ReadP.val_main_v30 (m ((c : Thread nD τ).loc main_arg1)) :=
  (W7_of_ne m ρ c main_v29 (by decide)).trans (w6_v29 m ρ c)

theorem w7_v45 : W7 m ρ c (Proc.devRef .tc main_v45) = Cert.ReferenceIdeal.ReadP.val_main_v47 (m ((c : Thread nD τ).loc main_arg0)) (m ((c : Thread nD τ).loc main_arg1)) (m ((c : Thread nD τ).loc main_arg3)) (m ((c : Thread nD τ).loc main_arg4)) :=
  ((W7_arr m ρ c 0).trans (((dat2 (V6 m ρ) c).arrAt_in 0 rfl _).trans (A_eq2 (V6 m ρ) c 0))).trans (w6_v45 m ρ c)

theorem w8_v59 : W8 m ρ c (Proc.devRef .tc main_v59) = Cert.ReferenceIdeal.ReadP.val_main_v91 (m ((c : Thread nD τ).loc main_arg0)) (m ((c : Thread nD τ).loc main_arg1)) (m ((c : Thread nD τ).loc main_arg3)) (m ((c : Thread nD τ).loc main_arg4)) (m ((c : Thread nD τ).loc main_arg5)) := by
  show StableHlo.after hostOps3 (W7 m ρ c) (Proc.devRef .tc main_v59) = _
  host_read
  rw [w7_v29 m ρ c, w7_v5 m ρ c, w7_v46 m ρ c, w7_v6 m ρ c]
  rfl

theorem w8_v60 : W8 m ρ c (Proc.devRef .tc main_v60) = shapeCast S1x64 (m ((c : Thread nD τ).loc main_arg6)) shapeCasts_S64_S1x64 := by
  show StableHlo.after hostOps3 (W7 m ρ c) (Proc.devRef .tc main_v60) = _
  host_read
  exact congrArg (fun z : (⟨S64, .f32⟩ : BufTy).Contents (Elt Ideal) => shapeCast S1x64 z shapeCasts_S64_S1x64) (w7_arg6 m ρ c)

theorem w8_arg7 : W8 m ρ c (Proc.devRef .tc main_arg7) = (m ((c : Thread nD τ).loc main_arg7)) := by
  show StableHlo.after hostOps3 (W7 m ρ c) (Proc.devRef .tc main_arg7) = _
  host_read
  exact w7_arg7 m ρ c

theorem w8_arg8 : W8 m ρ c (Proc.devRef .tc main_arg8) = (m ((c : Thread nD τ).loc main_arg8)) := by
  show StableHlo.after hostOps3 (W7 m ρ c) (Proc.devRef .tc main_arg8) = _
  host_read
  exact w7_arg8 m ρ c

theorem w8_v5 : W8 m ρ c (Proc.devRef .tc main_v5) = Cert.ReferenceIdeal.ReadP.val_main_v5 (m ((c : Thread nD τ).loc main_arg1)) := by
  show StableHlo.after hostOps3 (W7 m ρ c) (Proc.devRef .tc main_v5) = _
  host_read
  exact w7_v5 m ρ c

theorem w8_v6 : W8 m ρ c (Proc.devRef .tc main_v6) = Cert.ReferenceIdeal.ReadP.val_main_v6 (m ((c : Thread nD τ).loc main_arg1)) := by
  show StableHlo.after hostOps3 (W7 m ρ c) (Proc.devRef .tc main_v6) = _
  host_read
  exact w7_v6 m ρ c

theorem w8_v29 : W8 m ρ c (Proc.devRef .tc main_v29) = Cert.ReferenceIdeal.ReadP.val_main_v30 (m ((c : Thread nD τ).loc main_arg1)) := by
  show StableHlo.after hostOps3 (W7 m ρ c) (Proc.devRef .tc main_v29) = _
  host_read
  exact w7_v29 m ρ c

theorem w8_v45 : W8 m ρ c (Proc.devRef .tc main_v45) = Cert.ReferenceIdeal.ReadP.val_main_v47 (m ((c : Thread nD τ).loc main_arg0)) (m ((c : Thread nD τ).loc main_arg1)) (m ((c : Thread nD τ).loc main_arg3)) (m ((c : Thread nD τ).loc main_arg4)) := by
  show StableHlo.after hostOps3 (W7 m ρ c) (Proc.devRef .tc main_v45) = _
  host_read
  exact w7_v45 m ρ c

/-! ## mu -/

theorem w9_v61 : W9 m ρ c (Proc.devRef .tc main_v61) = Cert.ReferenceIdeal.ReadP.val_main_v94 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) := by
  refine (W9_arr m ρ c 2).trans ((Region3.final (V8 m ρ) c).trans ?_)
  funext i
  show FloatOps.addf (F := Ideal) (φ := .f32) (W8 m ρ c (Proc.devRef .tc main_v59) i) (W8 m ρ c (Proc.devRef .tc main_v60) (Region3.under i)) = _
  rw [w8_v59 m ρ c, w8_v60 m ρ c, Cert.ReferenceIdeal.ReadP.val_main_v94_apply, Cert.ReferenceIdeal.ReadP.val_main_v93_apply, Cert.ReferenceIdeal.ReadP.val_main_v92_apply]
  refine congrArg (fun z => FloatOps.addf (F := Ideal) (φ := .f32) _ z) ?_
  exact (shapeCast_addUnit_apply ![64] (m ((c : Thread nD τ).loc main_arg6)) _ (Region3.under i)).trans (congrArg (m ((c : Thread nD τ).loc main_arg6)) (funext fun a => by match a with | ⟨0, _⟩ => rfl))

theorem w9_arg7 : W9 m ρ c (Proc.devRef .tc main_arg7) = (m ((c : Thread nD τ).loc main_arg7)) :=
  (W9_of_ne m ρ c main_arg7 (by decide)).trans (w8_arg7 m ρ c)

theorem w9_arg8 : W9 m ρ c (Proc.devRef .tc main_arg8) = (m ((c : Thread nD τ).loc main_arg8)) :=
  (W9_of_ne m ρ c main_arg8 (by decide)).trans (w8_arg8 m ρ c)

theorem w9_v5 : W9 m ρ c (Proc.devRef .tc main_v5) = Cert.ReferenceIdeal.ReadP.val_main_v5 (m ((c : Thread nD τ).loc main_arg1)) :=
  (W9_of_ne m ρ c main_v5 (by decide)).trans (w8_v5 m ρ c)

theorem w9_v6 : W9 m ρ c (Proc.devRef .tc main_v6) = Cert.ReferenceIdeal.ReadP.val_main_v6 (m ((c : Thread nD τ).loc main_arg1)) :=
  (W9_of_ne m ρ c main_v6 (by decide)).trans (w8_v6 m ρ c)

theorem w9_v29 : W9 m ρ c (Proc.devRef .tc main_v29) = Cert.ReferenceIdeal.ReadP.val_main_v30 (m ((c : Thread nD τ).loc main_arg1)) :=
  (W9_of_ne m ρ c main_v29 (by decide)).trans (w8_v29 m ρ c)

theorem w9_v45 : W9 m ρ c (Proc.devRef .tc main_v45) = Cert.ReferenceIdeal.ReadP.val_main_v47 (m ((c : Thread nD τ).loc main_arg0)) (m ((c : Thread nD τ).loc main_arg1)) (m ((c : Thread nD τ).loc main_arg3)) (m ((c : Thread nD τ).loc main_arg4)) :=
  (W9_of_ne m ρ c main_v45 (by decide)).trans (w8_v45 m ρ c)

/-! ## The second layer's product for logstd, h1 · Wls -/

theorem w10_v62 : W10 m ρ c (Proc.devRef .tc main_v62) = Cert.ReferenceIdeal.ReadP.val_main_v102 (m ((c : Thread nD τ).loc main_arg0)) (m ((c : Thread nD τ).loc main_arg1)) (m ((c : Thread nD τ).loc main_arg3)) (m ((c : Thread nD τ).loc main_arg4)) (m ((c : Thread nD τ).loc main_arg7)) := by
  refine (W10_arr m ρ c 2).trans ((Region4.final (V9 m ρ) c).trans ?_)
  funext i
  refine Eq.trans ?_ (Cert.ReferenceIdeal.ReadP.val_main_v102_apply (m ((c : Thread nD τ).loc main_arg0)) (m ((c : Thread nD τ).loc main_arg1)) (m ((c : Thread nD τ).loc main_arg3)) (m ((c : Thread nD τ).loc main_arg4)) (m ((c : Thread nD τ).loc main_arg7)) i).symm
  have e0 : Region4.leftArr (V9 m ρ) c = Cert.ReferenceIdeal.ReadP.val_main_v47 (m ((c : Thread nD τ).loc main_arg0)) (m ((c : Thread nD τ).loc main_arg1)) (m ((c : Thread nD τ).loc main_arg3)) (m ((c : Thread nD τ).loc main_arg4)) := w9_v45 m ρ c
  have e1 : Region4.rightArr (V9 m ρ) c = (m ((c : Thread nD τ).loc main_arg7)) := w9_arg7 m ρ c
  show (∑ k : Fin 128, Region4.leftArr (V9 m ρ) c (Cert.ReferenceIdeal.ReadP.lidx_main_v102 i k) * Region4.rightArr (V9 m ρ) c (Cert.ReferenceIdeal.ReadP.ridx_main_v102 i k)) = _
  rw [e0, e1]

theorem w10_arg8 : W10 m ρ c (Proc.devRef .tc main_arg8) = (m ((c : Thread nD τ).loc main_arg8)) :=
  (W10_of_ne m ρ c main_arg8 (by decide)).trans (w9_arg8 m ρ c)

theorem w10_v5 : W10 m ρ c (Proc.devRef .tc main_v5) = Cert.ReferenceIdeal.ReadP.val_main_v5 (m ((c : Thread nD τ).loc main_arg1)) :=
  (W10_of_ne m ρ c main_v5 (by decide)).trans (w9_v5 m ρ c)

theorem w10_v6 : W10 m ρ c (Proc.devRef .tc main_v6) = Cert.ReferenceIdeal.ReadP.val_main_v6 (m ((c : Thread nD τ).loc main_arg1)) :=
  (W10_of_ne m ρ c main_v6 (by decide)).trans (w9_v6 m ρ c)

theorem w10_v29 : W10 m ρ c (Proc.devRef .tc main_v29) = Cert.ReferenceIdeal.ReadP.val_main_v30 (m ((c : Thread nD τ).loc main_arg1)) :=
  (W10_of_ne m ρ c main_v29 (by decide)).trans (w9_v29 m ρ c)

theorem w10_v61 : W10 m ρ c (Proc.devRef .tc main_v61) = Cert.ReferenceIdeal.ReadP.val_main_v94 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) :=
  (W10_of_ne m ρ c main_v61 (by decide)).trans (w9_v61 m ρ c)

theorem w11_v75 : W11 m ρ c (Proc.devRef .tc main_v75) = Cert.ReferenceIdeal.ReadP.val_main_v138 (m ((c : Thread nD τ).loc main_arg0)) (m ((c : Thread nD τ).loc main_arg1)) (m ((c : Thread nD τ).loc main_arg3)) (m ((c : Thread nD τ).loc main_arg4)) (m ((c : Thread nD τ).loc main_arg7)) := by
  show StableHlo.after hostOps5 (W10 m ρ c) (Proc.devRef .tc main_v75) = _
  host_read
  rw [w10_v29 m ρ c, w10_v5 m ρ c, w10_v62 m ρ c, w10_v6 m ρ c]
  rfl

theorem w11_v76 : W11 m ρ c (Proc.devRef .tc main_v76) = shapeCast S1x64 (m ((c : Thread nD τ).loc main_arg8)) shapeCasts_S64_S1x64 := by
  show StableHlo.after hostOps5 (W10 m ρ c) (Proc.devRef .tc main_v76) = _
  host_read
  exact congrArg (fun z : (⟨S64, .f32⟩ : BufTy).Contents (Elt Ideal) => shapeCast S1x64 z shapeCasts_S64_S1x64) (w10_arg8 m ρ c)

theorem w11_v61 : W11 m ρ c (Proc.devRef .tc main_v61) = Cert.ReferenceIdeal.ReadP.val_main_v94 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) := by
  show StableHlo.after hostOps5 (W10 m ρ c) (Proc.devRef .tc main_v61) = _
  host_read
  exact w10_v61 m ρ c

/-! ## logstd, and mu still where the fourth call left it -/

theorem w12_v77 : W12 m ρ c (Proc.devRef .tc main_v77) = Cert.ReferenceIdeal.ReadP.val_main_v141 (m ((c : Thread nD τ).loc main_arg0)) (m ((c : Thread nD τ).loc main_arg1)) (m ((c : Thread nD τ).loc main_arg3)) (m ((c : Thread nD τ).loc main_arg4)) (m ((c : Thread nD τ).loc main_arg7)) (m ((c : Thread nD τ).loc main_arg8)) := by
  refine (W12_arr m ρ c 2).trans ((Region5.final (V11 m ρ) c).trans ?_)
  funext i
  show FloatOps.addf (F := Ideal) (φ := .f32) (W11 m ρ c (Proc.devRef .tc main_v75) i) (W11 m ρ c (Proc.devRef .tc main_v76) (Region5.under i)) = _
  rw [w11_v75 m ρ c, w11_v76 m ρ c, Cert.ReferenceIdeal.ReadP.val_main_v141_apply, Cert.ReferenceIdeal.ReadP.val_main_v140_apply, Cert.ReferenceIdeal.ReadP.val_main_v139_apply]
  refine congrArg (fun z => FloatOps.addf (F := Ideal) (φ := .f32) _ z) ?_
  exact (shapeCast_addUnit_apply ![64] (m ((c : Thread nD τ).loc main_arg8)) _ (Region5.under i)).trans (congrArg (m ((c : Thread nD τ).loc main_arg8)) (funext fun a => by match a with | ⟨0, _⟩ => rfl))

theorem w12_v61 : W12 m ρ c (Proc.devRef .tc main_v61) = Cert.ReferenceIdeal.ReadP.val_main_v94 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) :=
  (W12_of_ne m ρ c main_v61 (by decide)).trans (w11_v61 m ρ c)

end Cert.KernelIdeal.Chain

end
-- ==== Proof.lean ====
/-
  A three-layer graph convolution encoder (one hidden layer with relu, then two output heads mu and logstd), the
  kernel against its jnp reference, on the extended reals.
  Both programs add self loops to the edge list, form the symmetric normalisation dinv[source] · dinv[target] from the
  in-degrees, and in every layer compute  scatter-add over targets of (normalisation · (feat · W)[source])  plus the
  bias. The kernel computes each product feat · W in a pallas_call over fifty row tiles (operands narrowed to bf16,
  which is a change of format and so the identity here) and each bias add (and the first layer's max with 0) in another;
  gather, scaling and scatter-add stay host operations, the same ones as the reference's. The reference computes the
  product with dot_general, adds the bias by broadcasting, and recomputes the normalisation in every layer. No
  rearrangement of a sum separates the two sides beyond the tiling of rows, so the precondition is never opened.
  The kernel's side: its run with both results named (KernelRun), each call's output array as one function of its input
  arrays (Payload, Region0 … Region5), and the buffers followed from the launch to the results (Chain). The reference's
  side: its run read back and its stages (ReferenceRunP, ReferenceReadP).
-/
import proofs.«146065_j47545287966961_1_alg».proof.Defs
import proofs.«146065_j47545287966961_1_alg».proof.Proof.Gen.Kernel
import proofs.«146065_j47545287966961_1_alg».proof.Proof.Gen.Kernel.Frame
import proofs.«146065_j47545287966961_1_alg».proof.Proof.Gen.KernelIdeal
import proofs.«146065_j47545287966961_1_alg».proof.Proof.Gen.KernelIdeal.Frame
import proofs.«146065_j47545287966961_1_alg».proof.Proof.Gen.ReferenceIdeal
import proofs.«146065_j47545287966961_1_alg».proof.Proof.Gen.Pre_finite_inputs
import proofs.«146065_j47545287966961_1_alg».proof.Proof.KernelRun
import proofs.«146065_j47545287966961_1_alg».proof.Proof.Chain
import proofs.«146065_j47545287966961_1_alg».proof.Proof.ReferenceReadP
import Idealize.ShloMosaic.Adequacy
import Idealize.ShloMosaic.Init

set_option maxRecDepth 16384

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's run with the two results dropped. -/
theorem frame_ri : Cert.frame_ReferenceIdeal := fun m ρ _ =>
  (θ_run Cert.ReferenceIdeal.defs _ _).mono (fun _ h c => (h c).2.2) (Cert.ReferenceIdeal.ValueP.run (F := Ideal) m ρ)

/-- The ideal pass rewrote nothing. -/
theorem preserves : Cert.preserves_Kernel_KernelIdeal := trivial

/-- Both programs end with mu and logstd at the reference's two result stages of the argument arrays: the kernel by
    following its buffers through the six calls, the reference by its run read back; the arguments agree. -/
theorem algebraic : Cert.algebraic_KernelIdeal_ReferenceIdeal := by
  intro m ρ m' ρ' _ hagree
  refine ⟨fun c => Cert.ReferenceIdeal.ReadP.val_main_v94 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)),
    fun c => Cert.ReferenceIdeal.ReadP.val_main_v141 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)), ?_, ?_⟩
  · exact (θ_run Cert.KernelIdeal.defs _ _).mono
      (fun r h c => ⟨(h c).1.trans (Cert.KernelIdeal.Chain.w12_v61 m ρ c), (h c).2.1.trans (Cert.KernelIdeal.Chain.w12_v77 m ρ c), (h c).2.2⟩)
      (Cert.KernelIdeal.RunValue.run_results m ρ)
  · refine (θ_run Cert.ReferenceIdeal.defs _ _).mono (fun r h c => ?_) (Cert.ReferenceIdeal.ValueP.run (F := Ideal) m' ρ')
    obtain ⟨a0, a1, a2, a3, a4, a5, a6, a7, a8⟩ := hagree c
    refine ⟨?_, ?_, (h c).2.2⟩
    · rw [(h c).1, Cert.ReferenceIdeal.ReadP.val_main_v94_eq, a0, a1, a3, a4, a5, a6]
    · rw [(h c).2.1, Cert.ReferenceIdeal.ReadP.val_main_v141_eq, a0, a1, a3, a4, a7, a8]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
